-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_sqrt_d" .f32 0x3E3504F3#32 ((2097152 / 11863283 : ℝ) : EReal)
  ∧ IdealRules.named_const.Statement Cert.KernelIdeal.κ "inv_sqrt_d" .f32 0x3E3504F3#32 ((2097152 / 11863283 : ℝ) : EReal)
  ∧ IdealRules.named_const.Statement Cert.KernelIdeal.κ "inv_sqrt_d" .f32 0x3E3504F3#32 ((2097152 / 11863283 : ℝ) : EReal)
  ∧ IdealRules.named_const.Statement Cert.KernelIdeal.κ "inv_sqrt_d" .f32 0x3E3504F3#32 ((2097152 / 11863283 : ℝ) : EReal)
  ∧ IdealRules.named_const.Statement Cert.KernelIdeal.κ "inv_sqrt_d" .f32 0x3E3504F3#32 ((2097152 / 11863283 : ℝ) : EReal)
  ∧ IdealRules.named_const.Statement Cert.KernelIdeal.κ "inv_sqrt_d" .f32 0x3E3504F3#32 ((2097152 / 11863283 : ℝ) : EReal)
  ∧ IdealRules.named_const.Statement Cert.KernelIdeal.κ "inv_sqrt_d" .f32 0x3E3504F3#32 ((2097152 / 11863283 : ℝ) : EReal)
  ∧ IdealRules.named_const.Statement Cert.KernelIdeal.κ "inv_sqrt_d" .f32 0x3E3504F3#32 ((2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x32x256 : Shape := ⟨4, ![8, 1024, 32, 256]⟩
abbrev S8x1024x32 : Shape := ⟨3, ![8, 1024, 32]⟩
abbrev S256x256 : Shape := ⟨2, ![256, 256]⟩
abbrev S_ : Shape := ⟨0, ![]⟩

class Facts : Prop where
  bcast_S_S8x1024x32x256 : S_.BroadcastsInDim S8x1024x32x256 (![] : Fin 0 → Fin S8x1024x32x256.rank)
  reducesTo_S8x1024x32x256_S_d0_1_2_3 : S8x1024x32x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S8x1024x32 : S_.BroadcastsInDim S8x1024x32 (![] : Fin 0 → Fin S8x1024x32.rank)
  reducesTo_S8x1024x32_S_d0_1_2 : S8x1024x32.ReducesTo [0, 1, 2] S_

variable [Facts]

def fn_part1 {F : FTy → Type} [FloatOps F] (main_arg1 : IVec S8x1024x32 32) (main_arg5 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_c_8 : IVec S_ 32 := constantI S_ 32 0#32
  let main_v24 : IVec S8x1024x32 32 := broadcastInDim S8x1024x32 ![] bcast_S_S8x1024x32 main_c_8
  let main_v25 : IVec S8x1024x32 1 := cmpi .sge main_arg1 main_v24
  let main_c_9 : IVec S_ 32 := constantI S_ 32 1#32
  let main_v26 : IVec S8x1024x32 32 := broadcastInDim S8x1024x32 ![] bcast_S_S8x1024x32 main_c_9
  let main_v27 : IVec S8x1024x32 1 := cmpi .sle main_arg1 main_v26
  let main_v28 : IVec S8x1024x32 1 := andi main_v25 main_v27
  let main_c_10 : IVec S_ 1 := constantI S_ 1 1#1
  let main_v29 : IVec S_ 1 := (fun x v => Host.reduce IntOp.andi x v reducesTo_S8x1024x32_S_d0_1_2 h_S_) main_v28 main_c_10
  let main_v30 : IVec S_ 1 := andi main_v23 main_v29
  main_v30

def fn {F : FTy → Type} [FloatOps F] (main_arg0 : FVec F S8x1024x32x256 .f32) (main_arg1 : IVec S8x1024x32 32) (main_arg2 : FVec F S256x256 .f32) (main_arg3 : FVec F S256x256 .f32) (main_arg4 : FVec F S256x256 .f32) (main_arg5 : FVec F S256x256 .f32) : IVec S_ 1 :=
  let main_v0 : FVec F S8x1024x32x256 .f32 := Host.absf main_arg0
  let main_cst : FVec F S_ .f32 := constant S_ .f32 0x7F800000#32
  let main_v1 : FVec F S8x1024x32x256 .f32 := broadcastInDim S8x1024x32x256 ![] bcast_S_S8x1024x32x256 main_cst
  let main_v2 : IVec S8x1024x32x256 1 := cmpf .olt main_v0 main_v1
  let main_c : IVec S_ 1 := constantI S_ 1 1#1
  let main_v3 : IVec S_ 1 := (fun x v => Host.reduce IntOp.andi x v reducesTo_S8x1024x32x256_S_d0_1_2_3 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_v13 main_v16
-- ==== Kernel.lean ====
abbrev S8x1024x32x256 : Shape := ⟨4, ![8, 1024, 32, 256]⟩
abbrev S8x1024x32 : Shape := ⟨3, ![8, 1024, 32]⟩
abbrev S256x256 : Shape := ⟨2, ![256, 256]⟩
abbrev S1x64x32x256 : Shape := ⟨4, ![1, 64, 32, 256]⟩
abbrev S1x64x32 : Shape := ⟨3, ![1, 64, 32]⟩
abbrev S64x32x256 : Shape := ⟨3, ![64, 32, 256]⟩
abbrev S2048x256 : Shape := ⟨2, ![2048, 256]⟩
abbrev S64x32x8x32 : Shape := ⟨4, ![64, 32, 8, 32]⟩
abbrev S64x32 : Shape := ⟨2, ![64, 32]⟩
abbrev S64x32x1 : Shape := ⟨3, ![64, 32, 1]⟩
abbrev S64x1x32 : Shape := ⟨3, ![64, 1, 32]⟩
abbrev S64x32x32 : Shape := ⟨3, ![64, 32, 32]⟩
abbrev S64x32x1x32 : Shape := ⟨4, ![64, 32, 1, 32]⟩

abbrev nBuf : Space → Nat
  | .hbm => 15
  | .vmem => 10
  | .smem => 0
  | _ => 0

abbrev bufTy : (tb : Table) → Fin (tcTables nBuf tb) → BufTy
  | .hbm, ⟨0, _⟩ => ⟨S8x1024x32x256, .f32⟩
  | .hbm, ⟨1, _⟩ => ⟨S8x1024x32, .i32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .bf16⟩
  | .hbm, ⟨8, _⟩ => ⟨S256x256, .f32⟩
  | .hbm, ⟨9, _⟩ => ⟨S256x256, .bf16⟩
  | .hbm, ⟨10, _⟩ => ⟨S256x256, .f32⟩
  | .hbm, ⟨11, _⟩ => ⟨S256x256, .bf16⟩
  | .hbm, ⟨12, _⟩ => ⟨S256x256, .f32⟩
  | .hbm, ⟨13, _⟩ => ⟨S256x256, .bf16⟩
  | .hbm, ⟨14, _⟩ => ⟨S8x1024x32x256, .f32⟩
  | .local _ .vmem, ⟨0, _⟩ => ⟨S1x64x32x256, .f32⟩
  | .local _ .vmem, ⟨1, _⟩ => ⟨S1x64x32x256, .f32⟩
  | .local _ .vmem, ⟨2, _⟩ => ⟨S1x64x32, .i32⟩
  | .local _ .vmem, ⟨3, _⟩ => ⟨S1x64x32, .i32⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S1x64x32x256, .f32⟩
  | .local _ .vmem, ⟨9, _⟩ => ⟨S1x64x32x256, .f32⟩
  | _, _ => ⟨S8x1024x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S256x256_S256x256_1_0 : S256x256.Transposes [1, 0] S256x256
  bitsLt_bf16_f32 : FTy.bits .bf16 < FTy.bits .f32
  inb_S1x64x32x256_S1x64x32x256_0_0_0_0 : ∀ a, (![0, 0, 0, 0] : Fin 4 → Nat) a + S1x64x32x256.size a ≤ S1x64x32x256.size a
  h_S1x64x32x256 : 0 < S1x64x32x256.numel
  shapeCasts_S1x64x32x256_S64x32x256 : S1x64x32x256.ShapeCasts S64x32x256
  shapeCasts_S64x32x256_S2048x256 : S64x32x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S2048x256_S64x32x8x32 : S2048x256.ShapeCasts S64x32x8x32
  inb_S1x64x32_S1x64x32_0_0_0 : ∀ a, (![0, 0, 0] : Fin 3 → Nat) a + S1x64x32.size a ≤ S1x64x32.size a
  h_S1x64x32 : 0 < S1x64x32.numel
  shapeCasts_S1x64x32_S64x32 : S1x64x32.ShapeCasts S64x32
  shapeCasts_S64x32_S64x32x1 : S64x32.ShapeCasts S64x32x1
  shapeCasts_S64x32_S64x1x32 : S64x32.ShapeCasts S64x1x32
  broadcasts_S64x32x1_S64x32x32 : S64x32x1.Broadcasts S64x32x32
  broadcasts_S64x1x32_S64x32x32 : S64x1x32.Broadcasts S64x32x32
  slices_S64x32x8x32_o0_0_0_0_S64x32x1x32 : S64x32x8x32.Slices ![0, 0, 0, 0] S64x32x1x32
  shapeCasts_S64x32x1x32_S64x32x32 : S64x32x1x32.ShapeCasts S64x32x32
  reduces_S64x32x32_S64x32 : S64x32x32.Reduces [2] S64x32
  natLt_1_32 : 1 < 32
  slices_S64x32x8x32_o0_0_1_0_S64x32x1x32 : S64x32x8x32.Slices ![0, 0, 1, 0] S64x32x1x32
  slices_S64x32x8x32_o0_0_2_0_S64x32x1x32 : S64x32x8x32.Slices ![0, 0, 2, 0] S64x32x1x32
  slices_S64x32x8x32_o0_0_3_0_S64x32x1x32 : S64x32x8x32.Slices ![0, 0, 3, 0] S64x32x1x32
  slices_S64x32x8x32_o0_0_4_0_S64x32x1x32 : S64x32x8x32.Slices ![0, 0, 4, 0] S64x32x1x32
  slices_S64x32x8x32_o0_0_5_0_S64x32x1x32 : S64x32x8x32.Slices ![0, 0, 5, 0] S64x32x1x32
  slices_S64x32x8x32_o0_0_6_0_S64x32x1x32 : S64x32x8x32.Slices ![0, 0, 6, 0] S64x32x1x32
  slices_S64x32x8x32_o0_0_7_0_S64x32x1x32 : S64x32x8x32.Slices ![0, 0, 7, 0] S64x32x1x32
  shapeCasts_S64x32x32_S64x32x1x32 : S64x32x32.ShapeCasts S64x32x1x32
  concatenates_S64x32x1x32_S64x32x1x32_S64x32x1x32_S64x32x1x32_S64x32x1x32_S64x32x1x32_S64x32x1x32_S64x32x1x32_S64x32x8x32_d2 : Shape.Concatenates [S64x32x1x32, S64x32x1x32, S64x32x1x32, S64x32x1x32, S64x32x1x32, S64x32x1x32, S64x32x1x32, S64x32x1x32] S64x32x8x32 2
  shapeCasts_S64x32x8x32_S2048x256 : S64x32x8x32.ShapeCasts S2048x256
  shapeCasts_S2048x256_S64x32x256 : S2048x256.ShapeCasts S64x32x256
  shapeCasts_S64x32x256_S1x64x32x256 : S64x32x256.ShapeCasts S1x64x32x256
  dot_S2048x256_S256x256_S2048x256_1_0_0_1_n_n_wf : DotDims.WF S2048x256 S256x256 S2048x256 [1] [0] [0] [1] [] []
  dot_S64x32x32_S64x32x32_S64x32x32_2_2_1_1_0_0_wf : DotDims.WF S64x32x32 S64x32x32 S64x32x32 [2] [2] [1] [1] [0] [0]
  dot_S64x32x32_S64x32x32_S64x32x32_2_1_1_2_0_0_wf : DotDims.WF S64x32x32 S64x32x32 S64x32x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x32x256.size a ≤ S8x1024x32x256.size a
  hwx0_0 : ∀ i : grid0.Coords, EltTy.bits .f32 = 32 ∨ (Rect.block (s := S8x1024x32x256) S1x64x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x32.size a ≤ S8x1024x32.size a
  hwx0_1 : ∀ i : grid0.Coords, EltTy.bits .i32 = 32 ∨ (Rect.block (s := S8x1024x32) S1x64x32.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x32x256.size a ≤ S8x1024x32x256.size a
  hwx0_6 : ∀ i : grid0.Coords, EltTy.bits .f32 = 32 ∨ (Rect.block (s := S8x1024x32x256) S1x64x32x256.size (cc0_transform_6 i) (hinb0_6 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S64x32x32_S64x32x32_S64x32x32_2_2_1_1_0_0 : DotDims S64x32x32 S64x32x32 S64x32x32 where
  lhsContracting := [2]
  rhsContracting := [2]
  lhsNonContracting := [1]
  rhsNonContracting := [1]
  lhsBatch := [0]
  rhsBatch := [0]
  wf := dot_S64x32x32_S64x32x32_S64x32x32_2_2_1_1_0_0_wf
def dot_S64x32x32_S64x32x32_S64x32x32_2_1_1_2_0_0 : DotDims S64x32x32 S64x32x32 S64x32x32 where
  lhsContracting := [2]
  rhsContracting := [1]
  lhsNonContracting := [1]
  rhsNonContracting := [2]
  lhsBatch := [0]
  rhsBatch := [0]
  wf := dot_S64x32x32_S64x32x32_S64x32x32_2_1_1_2_0_0_wf

abbrev win0_0 : Pipeline.Window sig grid0 :=
  Pipeline.Window.ofSpec (Memref.whole main_arg0) S1x64x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x64x32x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x1024x32x256 : Shape := ⟨4, ![8, 1024, 32, 256]⟩
abbrev S8x1024x32 : Shape := ⟨3, ![8, 1024, 32]⟩
abbrev S256x256 : Shape := ⟨2, ![256, 256]⟩
abbrev S8x1024x32x8x32 : Shape := ⟨5, ![8, 1024, 32, 8, 32]⟩
abbrev S8x1024x8x32x32 : Shape := ⟨5, ![8, 1024, 8, 32, 32]⟩
abbrev S_ : Shape := ⟨0, ![]⟩
abbrev S8x1024x1x32 : Shape := ⟨4, ![8, 1024, 1, 32]⟩
abbrev S8x1024x1x32x1 : Shape := ⟨5, ![8, 1024, 1, 32, 1]⟩
abbrev S8x1024x1x1x32 : Shape := ⟨5, ![8, 1024, 1, 1, 32]⟩
abbrev S8x1024x1x32x32 : Shape := ⟨5, ![8, 1024, 1, 32, 32]⟩
abbrev S8x1024x8x32 : Shape := ⟨4, ![8, 1024, 8, 32]⟩
abbrev S8x1024x8x32x1 : Shape := ⟨5, ![8, 1024, 8, 32, 1]⟩

abbrev nBuf : Space → Nat
  | .hbm => 53
  | .vmem => 0
  | .smem => 0
  | _ => 0

abbrev bufTy : (tb : Table) → Fin (tcTables nBuf tb) → BufTy
  | .hbm, ⟨0, _⟩ => ⟨S8x1024x32x256, .f32⟩
  | .hbm, ⟨1, _⟩ => ⟨S8x1024x32, .i32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S8x1024x32x256, .f32⟩
  | .hbm, ⟨7, _⟩ => ⟨S8x1024x32x8x32, .f32⟩
  | .hbm, ⟨8, _⟩ => ⟨S8x1024x8x32x32, .f32⟩
  | .hbm, ⟨9, _⟩ => ⟨S8x1024x32x256, .f32⟩
  | .hbm, ⟨10, _⟩ => ⟨S8x1024x32x8x32, .f32⟩
  | .hbm, ⟨11, _⟩ => ⟨S8x1024x8x32x32, .f32⟩
  | .hbm, ⟨12, _⟩ => ⟨S8x1024x32x256, .f32⟩
  | .hbm, ⟨13, _⟩ => ⟨S8x1024x32x8x32, .f32⟩
  | .hbm, ⟨14, _⟩ => ⟨S8x1024x8x32x32, .f32⟩
  | .hbm, ⟨15, _⟩ => ⟨S8x1024x8x32x32, .f32⟩
  | .hbm, ⟨16, _⟩ => ⟨S_, .f32⟩
  | .hbm, ⟨17, _⟩ => ⟨S8x1024x8x32x32, .f32⟩
  | .hbm, ⟨18, _⟩ => ⟨S8x1024x8x32x32, .f32⟩
  | .hbm, ⟨19, _⟩ => ⟨S_, .i32⟩
  | .hbm, ⟨20, _⟩ => ⟨S8x1024x32, .i32⟩
  | .hbm, ⟨21, _⟩ => ⟨S8x1024x32, .i1⟩
  | .hbm, ⟨22, _⟩ => ⟨S8x1024x1x32, .i1⟩
  | .hbm, ⟨23, _⟩ => ⟨S8x1024x1x32x1, .i1⟩
  | .hbm, ⟨24, _⟩ => ⟨S8x1024x1x1x32, .i1⟩
  | .hbm, ⟨25, _⟩ => ⟨S8x1024x1x32x32, .i1⟩
  | .hbm, ⟨26, _⟩ => ⟨S8x1024x1x32x32, .i1⟩
  | .hbm, ⟨27, _⟩ => ⟨S8x1024x1x32x32, .i1⟩
  | .hbm, ⟨28, _⟩ => ⟨S_, .f32⟩
  | .hbm, ⟨29, _⟩ => ⟨S8x1024x8x32x32, .i1⟩
  | .hbm, ⟨30, _⟩ => ⟨S8x1024x8x32x32, .f32⟩
  | .hbm, ⟨31, _⟩ => ⟨S8x1024x8x32x32, .f32⟩
  | .hbm, ⟨32, _⟩ => ⟨S_, .f32⟩
  | .hbm, ⟨33, _⟩ => ⟨S8x1024x8x32, .f32⟩
  | .hbm, ⟨34, _⟩ => ⟨S_, .f32⟩
  | .hbm, ⟨35, _⟩ => ⟨S8x1024x8x32, .f32⟩
  | .hbm, ⟨36, _⟩ => ⟨S8x1024x8x32, .f32⟩
  | .hbm, ⟨37, _⟩ => ⟨S8x1024x8x32x1, .f32⟩
  | .hbm, ⟨38, _⟩ => ⟨S8x1024x8x32x32, .f32⟩
  | .hbm, ⟨39, _⟩ => ⟨S8x1024x8x32x32, .f32⟩
  | .hbm, ⟨40, _⟩ => ⟨S8x1024x8x32x32, .f32⟩
  | .hbm, ⟨41, _⟩ => ⟨S_, .f32⟩
  | .hbm, ⟨42, _⟩ => ⟨S8x1024x8x32, .f32⟩
  | .hbm, ⟨43, _⟩ => ⟨S8x1024x8x32x1, .f32⟩
  | .hbm, ⟨44, _⟩ => ⟨S8x1024x8x32x32, .f32⟩
  | .hbm, ⟨45, _⟩ => ⟨S8x1024x8x32x32, .f32⟩
  | .hbm, ⟨46, _⟩ => ⟨S8x1024x1x32x32, .f32⟩
  | .hbm, ⟨47, _⟩ => ⟨S8x1024x8x32x32, .f32⟩
  | .hbm, ⟨48, _⟩ => ⟨S8x1024x8x32x32, .f32⟩
  | .hbm, ⟨49, _⟩ => ⟨S8x1024x8x32x32, .f32⟩
  | .hbm, ⟨50, _⟩ => ⟨S8x1024x32x8x32, .f32⟩
  | .hbm, ⟨51, _⟩ => ⟨S8x1024x32x256, .f32⟩
  | .hbm, ⟨52, _⟩ => ⟨S8x1024x32x256, .f32⟩
  | _, _ => ⟨S8x1024x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  shapeCasts_S8x1024x32x256_S8x1024x32x8x32 : S8x1024x32x256.ShapeCasts S8x1024x32x8x32
  transposes_S8x1024x32x8x32_S8x1024x8x32x32_0_1_3_2_4 : S8x1024x32x8x32.Transposes [0, 1, 3, 2, 4] S8x1024x8x32x32
  bcast_S_S8x1024x8x32x32 : S_.BroadcastsInDim S8x1024x8x32x32 (![] : Fin 0 → Fin S8x1024x8x32x32.rank)
  bcast_S_S8x1024x32 : S_.BroadcastsInDim S8x1024x32 (![] : Fin 0 → Fin S8x1024x32.rank)
  bcast_S8x1024x32_S8x1024x1x32_0_1_3 : S8x1024x32.BroadcastsInDim S8x1024x1x32 (![0, 1, 3] : Fin 3 → Fin S8x1024x1x32.rank)
  bcast_S8x1024x1x32_S8x1024x1x32x1_0_1_2_3 : S8x1024x1x32.BroadcastsInDim S8x1024x1x32x1 (![0, 1, 2, 3] : Fin 4 → Fin S8x1024x1x32x1.rank)
  bcast_S8x1024x1x32_S8x1024x1x1x32_0_1_2_4 : S8x1024x1x32.BroadcastsInDim S8x1024x1x1x32 (![0, 1, 2, 4] : Fin 4 → Fin S8x1024x1x1x32.rank)
  bcast_S8x1024x1x32x1_S8x1024x1x32x32_0_1_2_3_4 : S8x1024x1x32x1.BroadcastsInDim S8x1024x1x32x32 (![0, 1, 2, 3, 4] : Fin 5 → Fin S8x1024x1x32x32.rank)
  bcast_S8x1024x1x1x32_S8x1024x1x32x32_0_1_2_3_4 : S8x1024x1x1x32.BroadcastsInDim S8x1024x1x32x32 (![0, 1, 2, 3, 4] : Fin 5 → Fin S8x1024x1x32x32.rank)
  bcast_S8x1024x1x32x32_S8x1024x8x32x32_0_1_2_3_4 : S8x1024x1x32x32.BroadcastsInDim S8x1024x8x32x32 (![0, 1, 2, 3, 4] : Fin 5 → Fin S8x1024x8x32x32.rank)
  reducesTo_S8x1024x8x32x32_S8x1024x8x32_d4 : S8x1024x8x32x32.ReducesTo [4] S8x1024x8x32
  h_S_ : 0 < S_.numel
  bcast_S_S8x1024x8x32 : S_.BroadcastsInDim S8x1024x8x32 (![] : Fin 0 → Fin S8x1024x8x32.rank)
  bcast_S8x1024x8x32_S8x1024x8x32x1_0_1_2_3 : S8x1024x8x32.BroadcastsInDim S8x1024x8x32x1 (![0, 1, 2, 3] : Fin 4 → Fin S8x1024x8x32x1.rank)
  bcast_S8x1024x8x32x1_S8x1024x8x32x32_0_1_2_3_4 : S8x1024x8x32x1.BroadcastsInDim S8x1024x8x32x32 (![0, 1, 2, 3, 4] : Fin 5 → Fin S8x1024x8x32x32.rank)
  transposes_S8x1024x8x32x32_S8x1024x32x8x32_0_1_3_2_4 : S8x1024x8x32x32.Transposes [0, 1, 3, 2, 4] S8x1024x32x8x32
  shapeCasts_S8x1024x32x8x32_S8x1024x32x256 : S8x1024x32x8x32.ShapeCasts S8x1024x32x256
  dot_S8x1024x32x256_S256x256_S8x1024x32x256_3_1_012_0_n_n_wf : DotDims.WF S8x1024x32x256 S256x256 S8x1024x32x256 [3] [1] [0, 1, 2] [0] [] []
  dot_S8x1024x8x32x32_S8x1024x8x32x32_S8x1024x8x32x32_4_4_3_3_012_012_wf : DotDims.WF S8x1024x8x32x32 S8x1024x8x32x32 S8x1024x8x32x32 [4] [4] [3] [3] [0, 1, 2] [0, 1, 2]
  dot_S8x1024x8x32x32_S8x1024x8x32x32_S8x1024x8x32x32_4_3_3_4_012_012_wf : DotDims.WF S8x1024x8x32x32 S8x1024x8x32x32 S8x1024x8x32x32 [4] [3] [3] [4] [0, 1, 2] [0, 1, 2]

variable [Facts₀]

def dot_S8x1024x32x256_S256x256_S8x1024x32x256_3_1_012_0_n_n : DotDims S8x1024x32x256 S256x256 S8x1024x32x256 where
  lhsContracting := [3]
  rhsContracting := [1]
  lhsNonContracting := [0, 1, 2]
  rhsNonContracting := [0]
  lhsBatch := []
  rhsBatch := []
  wf := dot_S8x1024x32x256_S256x256_S8x1024x32x256_3_1_012_0_n_n_wf
def dot_S8x1024x8x32x32_S8x1024x8x32x32_S8x1024x8x32x32_4_4_3_3_012_012 : DotDims S8x1024x8x32x32 S8x1024x8x32x32 S8x1024x8x32x32 where
  lhsContracting := [4]
  rhsContracting := [4]
  lhsNonContracting := [3]
  rhsNonContracting := [3]
  lhsBatch := [0, 1, 2]
  rhsBatch := [0, 1, 2]
  wf := dot_S8x1024x8x32x32_S8x1024x8x32x32_S8x1024x8x32x32_4_4_3_3_012_012_wf
def dot_S8x1024x8x32x32_S8x1024x8x32x32_S8x1024x8x32x32_4_3_3_4_012_012 : DotDims S8x1024x8x32x32 S8x1024x8x32x32 S8x1024x8x32x32 where
  lhsContracting := [4]
  rhsContracting := [3]
  lhsNonContracting := [3]
  rhsNonContracting := [4]
  lhsBatch := [0, 1, 2]
  rhsBatch := [0, 1, 2]
  wf := dot_S8x1024x8x32x32_S8x1024x8x32x32_S8x1024x8x32x32_4_3_3_4_012_012_wf

class Facts : Prop extends Facts₀ where

variable [Facts]
-- ==== Proof.AttnSpec.lean ====
/-
  Multi-head attention over the 32 rows of one term, on the extended reals: the common value of the two programs.

  For one (batch, term) pair the 32 rows X[a, ·] of 256 features are projected by three linear layers
  (Q, K, V = X Wqᵀ, X Wkᵀ, X Wvᵀ); the 256 columns are 8 heads of 32 lanes; per head the logits are
  Σ_d Q[q, 32h+d] · K[k, 32h+d] divided by the single-precision √32, replaced by the most negative finite
  single-precision number where the pair (q, k) is masked out; a softmax over k (shifted by the row maximum);
  the probabilities of masked-out pairs are then zeroed; the head's output is Σ_k p[q, k] · V[k, 32h+d]; the
  heads, side by side, go through a fourth linear layer Wo.  The mask of a pair is on when both rows' mask
  entries are positive.
-/
import Idealize.ShloMosaic.PureOps.Ideal
import Idealize.ShloMosaic.Lib.ValueIdx

noncomputable section

namespace Cert.Attn

open Idealize.ShloMosaic Idealize.ShloMosaic.ValueIdx

/-- Column `32 h + d` of the 256 hidden columns: lane `d` of head `h`. -/
def hcol (h : Fin 8) (d : Fin 32) : Fin 256 := ⟨h.val * 32 + d.val, by omega⟩

/-- The head of a hidden column. -/
def headOf (c : Fin 256) : Fin 8 := ⟨c.val / 32, by omega⟩

/-- The lane of a hidden column inside its head. -/
def laneOf (c : Fin 256) : Fin 32 := ⟨c.val % 32, Nat.mod_lt _ (by decide)⟩

theorem headOf_hcol (h : Fin 8) (d : Fin 32) : headOf (hcol h d) = h := by
  apply Fin.ext; show (h.val * 32 + d.val) / 32 = h.val; omega

theorem laneOf_hcol (h : Fin 8) (d : Fin 32) : laneOf (hcol h d) = d := by
  apply Fin.ext; show (h.val * 32 + d.val) % 32 = d.val; omega

theorem hcol_headOf_laneOf (c : Fin 256) : hcol (headOf c) (laneOf c) = c := by
  apply Fin.ext; show c.val / 32 * 32 + c.val % 32 = c.val; omega

/-- A linear layer without bias on one row: `(X Wᵀ)[a, o] = Σ_i X[a, i] · W[o, i]`. -/
def proj (X : Fin 32 → Fin 256 → EReal) (W : Fin 256 → Fin 256 → EReal) (a : Fin 32) (o : Fin 256) : EReal :=
  ∑ i : Fin 256, X a i * W o i

/-- The value a masked-out logit is replaced by: the most negative finite single-precision number. -/
def fill : EReal := Ideal.ofBits .f32 0xFF7FFFFF#32

/-- The logits' divisor: the single-precision number nearest √32. -/
def sqrtD : EReal := Ideal.ofBits .f32 0x40B504F3#32

/-- A mask entry is on when it is positive as a signed integer. -/
def pos (x : BitVec 32) : Bool := IntOp.cmpi .sgt x 0#32 == 1#1

/-- The pair (q, k) is attended when both rows' mask entries are on. -/
def pairOn (mask : Fin 32 → BitVec 32) (q k : Fin 32) : Bool := pos (mask q) && pos (mask k)

/-- Head `h`'s scaled logit of query row `q` against key row `k`. -/
def logit (Q K : Fin 32 → Fin 256 → EReal) (h : Fin 8) (q k : Fin 32) : EReal :=
  Ideal.div (∑ d : Fin 32, Q q (hcol h d) * K k (hcol h d)) sqrtD

/-- The logit, or the fill where the pair is masked out. -/
def masked (on : Fin 32 → Fin 32 → Bool) (Q K : Fin 32 → Fin 256 → EReal) (h : Fin 8) (q k : Fin 32) : EReal :=
  if on q k then logit Q K h q k else fill

/-- The maximum of a row of 32 extended reals (from −∞). -/
def rowMax (f : Fin 32 → EReal) : EReal := (Finset.univ : Finset (Fin 32)).fold max ⊥ f

/-- The shifted exponential of a masked logit. -/
def expo (on : Fin 32 → Fin 32 → Bool) (Q K : Fin 32 → Fin 256 → EReal) (h : Fin 8) (q k : Fin 32) : EReal :=
  Ideal.exp (masked on Q K h q k - rowMax (masked on Q K h q))

/-- One where the pair is attended, zero where it is masked out. -/
def gate (on : Fin 32 → Fin 32 → Bool) (q k : Fin 32) : EReal := if on q k then 1 else 0

/-- The softmax probability of key `k` for query `q`, zeroed where the pair is masked out. -/
def prob (on : Fin 32 → Fin 32 → Bool) (Q K : Fin 32 → Fin 256 → EReal) (h : Fin 8) (q k : Fin 32) : EReal :=
  Ideal.div (expo on Q K h q k) (∑ k' : Fin 32, expo on Q K h q k') * gate on q k

/-- Head `h`'s output at query row `q`, lane `d`. -/
def headOut (on : Fin 32 → Fin 32 → Bool) (Q K V : Fin 32 → Fin 256 → EReal) (h : Fin 8) (q : Fin 32) (d : Fin 32) : EReal :=
  ∑ k : Fin 32, prob on Q K h q k * V k (hcol h d)

/-- The attention layer on one term: row `a`, output column `o`. -/
def attnRow (on : Fin 32 → Fin 32 → Bool) (X : Fin 32 → Fin 256 → EReal) (Wq Wk Wv Wo : Fin 256 → Fin 256 → EReal)
    (a : Fin 32) (o : Fin 256) : EReal :=
  ∑ c : Fin 256, headOut on (proj X Wq) (proj X Wk) (proj X Wv) (headOf c) a (laneOf c) * Wo o c

/-- The whole result array as one function of the argument arrays: entry (b, t, a, o) is the attention layer of
    term (b, t) at row `a`, column `o`; the weights are read as [out, in] matrices. -/
def G (src : (⟨4, ![8, 1024, 32, 256]⟩ : Shape).Idx → EReal) (mask : (⟨3, ![8, 1024, 32]⟩ : Shape).Idx → BitVec 32)
    (Wq Wk Wv Wo : (⟨2, ![256, 256]⟩ : Shape).Idx → EReal) : (⟨4, ![8, 1024, 32, 256]⟩ : Shape).Idx → EReal :=
  fun i => attnRow (pairOn fun a => mask (ix3 (i 0) (i 1) a)) (fun a j => src (ix4 (i 0) (i 1) a j))
    (fun o j => Wq (ix2 o j)) (fun o j => Wk (ix2 o j)) (fun o j => Wv (ix2 o j)) (fun o j => Wo (ix2 o j)) (i 2) (i 3)

end Cert.Attn

end
-- ==== Proof.MaskDomain.lean ====
/-
  The mask's domain and what it gives.

  The precondition says, besides the finiteness of the float arrays, that every entry of the integer mask is 0 or 1.
  For two such entries the kernel's test "the product of the two entries is positive" and the reference's test
  "each entry is positive" agree: on {0, 1} a product is positive exactly when both factors are.
-/
import proofs.«155731_j20847771255440_2_alg».proof.Pre_finite_inputs
import proofs.«155731_j20847771255440_2_alg».proof.Proof.Gen.Pre_finite_inputs
import proofs.«155731_j20847771255440_2_alg».proof.Proof.AttnSpec
import Idealize.ShloMosaic.Lib.ReduceAll
import Idealize.ShloMosaic.Lib.ValueIdx

noncomputable section

namespace Cert.MaskDomain

open Idealize.ShloMosaic Cert.Pre_finite_inputs

instance : Subsingleton S_.Idx := ⟨fun a b => funext fun d => d.elim0⟩

/-- A signed 32-bit word between 0 and 1 is the word 0 or the word 1. -/
theorem word_binary (x : BitVec 32) (h0 : (0#32 : BitVec 32).toInt ≤ x.toInt) (h1 : x.toInt ≤ (1#32 : BitVec 32).toInt) :
    x = 0#32 ∨ x = 1#32 := by
  have e0 : (0#32 : BitVec 32).toInt = 0 := by decide
  have e1 : (1#32 : BitVec 32).toInt = 1 := by decide
  rw [e0] at h0; rw [e1] at h1
  have hx : x.toInt = 0 ∨ x.toInt = 1 := by omega
  rcases hx with hx | hx
  · exact Or.inl (BitVec.eq_of_toInt_eq (by rw [hx, e0]))
  · exact Or.inr (BitVec.eq_of_toInt_eq (by rw [hx, e1]))

/-- Under the precondition every mask entry is the word 0 or the word 1. -/
theorem mask_binary {F : FTy → Type} [FloatOps F] (a0 : FVec F S8x1024x32x256 .f32) (a1 : IVec S8x1024x32 32)
    (a2 a3 a4 a5 : FVec F S256x256 .f32)
    (h : fn (F := F) a0 a1 a2 a3 a4 a5 = fun _ => 1#1) (i : S8x1024x32.Idx) : a1 i = 0#32 ∨ a1 i = 1#32 := by
  have e := congrFun h ValueIdx.ix0
  dsimp only [fn, fn_part1] at e
  have e1 := (IntOp.andi_eq_one.1 e).2
  have e2 := Host.reduce_andi_all _ _ _ _ _ e1 i
  obtain ⟨hge, hle⟩ := IntOp.andi_eq_one.1 e2
  exact word_binary (a1 i) (IntOp.cmpi_sge.1 hge) (IntOp.cmpi_sle.1 hle)

/-- On binary mask entries, "the product is positive" is "both are positive". -/
theorem pair_bit (a b : BitVec 32) (ha : a = 0#32 ∨ a = 1#32) (hb : b = 0#32 ∨ b = 1#32) :
    IntOp.cmpi .sgt (IntOp.muli a b) 0#32 = if (Cert.Attn.pos a && Cert.Attn.pos b) = true then 1#1 else 0#1 := by
  rcases ha with rfl | rfl <;> rcases hb with rfl | rfl <;> decide

end Cert.MaskDomain

end
-- ==== Proof.RefValue.lean ====
/-
  The reference program computes multi-head attention on each term, read off entry by entry.

  Each of its operations is read at an index with literal coordinates: the three input projections as sums over the
  256 features, the split of the 256 columns into 8 heads of 32 lanes, the scaled and masked logits, their row
  maximum, the shifted exponentials and their row sum, the gated probabilities, each head's weighted sum of the
  values, the heads put side by side and the output projection.  Composed, the result array is the attention layer
  of the specification at every entry.
-/
import proofs.«155731_j20847771255440_2_alg».proof.Proof.Gen.ReferenceIdeal.Read
import proofs.«155731_j20847771255440_2_alg».proof.Proof.AttnSpec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-- The source array's type. -/
abbrev Src := (⟨S8x1024x32x256, .f32⟩ : BufTy).Contents (Elt Ideal)
/-- The mask array's type. -/
abbrev Msk := (⟨S8x1024x32, .i32⟩ : BufTy).Contents (Elt Ideal)
/-- A weight matrix's type. -/
abbrev Wt := (⟨S256x256, .f32⟩ : BufTy).Contents (Elt Ideal)

/-- A projection of the source by a weight matrix, at row (b, t, a) and column c, is the linear layer's sum. -/
theorem dotW_apply (x0 : Src) (W : Wt) (b : Fin 8) (t : Fin 1024) (a : Fin 32) (c : Fin 256) :
    val_main_v0 (F := Ideal) x0 W (ix4 b t a c)
      = Cert.Attn.proj (fun a j => x0 (ix4 b t a j)) (fun o j => W (ix2 o j)) a c := by
  rw [val_main_v0_apply]
  unfold Cert.Attn.proj
  refine Finset.sum_congr rfl fun k _ => ?_
  have e1 : lidx_main_v0 (ix4 b t a c) k = ix4 b t a k := by
    funext d; match d with | ⟨0, _⟩ => rfl | ⟨1, _⟩ => rfl | ⟨2, _⟩ => rfl | ⟨3, _⟩ => rfl
  have e2 : ridx_main_v0 (ix4 b t a c) k = ix2 c k := by
    funext d; match d with | ⟨0, _⟩ => rfl | ⟨1, _⟩ => rfl
  rw [e1, e2]

/-- The projection split into heads and with the head axis moved before the rows: entry (b, t, h, q, d) is the
    projection's row q at lane d of head h. -/
theorem headsW_apply (x0 : Src) (W : Wt) (b : Fin 8) (t : Fin 1024) (h : Fin 8) (q d : Fin 32) :
    val_main_v2 (F := Ideal) x0 W (ix5 b t h q d)
      = Cert.Attn.proj (fun a j => x0 (ix4 b t a j)) (fun o j => W (ix2 o j)) q (Cert.Attn.hcol h d) := by
  rw [val_main_v2_apply, val_main_v1_apply, ← dotW_apply]
  refine congrArg (val_main_v0 (F := Ideal) x0 W) ?_
  have hb := b.isLt; have ht := t.isLt; have hh := h.isLt; have hq := q.isLt; have hd := d.isLt
  funext e
  apply Fin.ext
  match e with
  | ⟨0, _⟩ => show ((((b.val * 1024 + t.val) * 32 + q.val) * 8 + h.val) * 32 + d.val) / 8388608 = b.val; omega
  | ⟨1, _⟩ => show ((((b.val * 1024 + t.val) * 32 + q.val) * 8 + h.val) * 32 + d.val) / 8192 % 1024 = t.val; omega
  | ⟨2, _⟩ => show ((((b.val * 1024 + t.val) * 32 + q.val) * 8 + h.val) * 32 + d.val) / 256 % 32 = q.val; omega
  | ⟨3, _⟩ => show ((((b.val * 1024 + t.val) * 32 + q.val) * 8 + h.val) * 32 + d.val) % 256 = h.val * 32 + d.val; omega

/-- The keys' projection, split into heads. -/
theorem headsK_apply (x0 : Src) (W : Wt) (b : Fin 8) (t : Fin 1024) (h : Fin 8) (q d : Fin 32) :
    val_main_v5 (F := Ideal) x0 W (ix5 b t h q d)
      = Cert.Attn.proj (fun a j => x0 (ix4 b t a j)) (fun o j => W (ix2 o j)) q (Cert.Attn.hcol h d) :=
  headsW_apply x0 W b t h q d

/-- The values' projection, split into heads. -/
theorem headsV_apply (x0 : Src) (W : Wt) (b : Fin 8) (t : Fin 1024) (h : Fin 8) (q d : Fin 32) :
    val_main_v8 (F := Ideal) x0 W (ix5 b t h q d)
      = Cert.Attn.proj (fun a j => x0 (ix4 b t a j)) (fun o j => W (ix2 o j)) q (Cert.Attn.hcol h d) :=
  headsW_apply x0 W b t h q d

/-- The rows of term (b, t) of the source. -/
abbrev rowsOf (x0 : Src) (b : Fin 8) (t : Fin 1024) : Fin 32 → Fin 256 → EReal := fun a j => x0 (ix4 b t a j)
/-- A weight array as an [out, in] matrix. -/
abbrev matOf (W : Wt) : Fin 256 → Fin 256 → EReal := fun o j => W (ix2 o j)
/-- The mask entries of term (b, t). -/
abbrev maskOf (x1 : Msk) (b : Fin 8) (t : Fin 1024) : Fin 32 → BitVec 32 := fun a => x1 (ix3 b t a)

/-- A mask entry compared with zero. -/
theorem cmp_apply (x1 : Msk) (b : Fin 8) (t : Fin 1024) (a : Fin 32) :
    val_main_v13 (F := Ideal) x1 (ix3 b t a) = IntOp.cmpi .sgt (maskOf x1 b t a) 0#32 := by
  rw [val_main_v13_apply, val_main_v12_apply, val_main_c_apply]

/-- The pair bit of rows q and k: the conjunction of the two rows' comparisons. -/
theorem pairBit_apply (x1 : Msk) (b : Fin 8) (t : Fin 1024) (z : Fin 1) (q k : Fin 32) :
    val_main_v19 (F := Ideal) x1 (ix5 b t z q k)
      = IntOp.andi (IntOp.cmpi .sgt (maskOf x1 b t q) 0#32) (IntOp.cmpi .sgt (maskOf x1 b t k) 0#32) := by
  rw [val_main_v19_apply, val_main_v17_apply, val_main_v15_apply, val_main_v14_apply, val_main_v18_apply,
    val_main_v16_apply, val_main_v14_apply]
  have e1 : idx_main_v14 (idx_main_v15 (idx_main_v17 (ix5 b t z q k))) = ix3 b t q := by
    funext d; match d with | ⟨0, _⟩ => rfl | ⟨1, _⟩ => rfl | ⟨2, _⟩ => rfl
  have e2 : idx_main_v14 (idx_main_v16 (idx_main_v18 (ix5 b t z q k))) = ix3 b t k := by
    funext d; match d with | ⟨0, _⟩ => rfl | ⟨1, _⟩ => rfl | ⟨2, _⟩ => rfl
  rw [e1, e2, cmp_apply, cmp_apply]

/-- Selecting on the pair bit is a choice on whether the pair is attended. -/
theorem select_pair {α : Type} (m : Fin 32 → BitVec 32) (q k : Fin 32) (A B : α) :
    Scalar.select (IntOp.andi (IntOp.cmpi .sgt (m q) 0#32) (IntOp.cmpi .sgt (m k) 0#32)) A B
      = if Cert.Attn.pairOn m q k then A else B := by
  unfold Cert.Attn.pairOn Cert.Attn.pos
  generalize IntOp.cmpi .sgt (m q) 0#32 = c1
  generalize IntOp.cmpi .sgt (m k) 0#32 = c2
  rcases BitVec.eq_zero_or_eq_one c1 with rfl | rfl <;> rcases BitVec.eq_zero_or_eq_one c2 with rfl | rfl <;>
    simp [Scalar.select, IntOp.andi]

/-- The pair bit read as a number is the gate: one where the pair is attended, zero elsewhere. -/
theorem uitofp_pair (m : Fin 32 → BitVec 32) (q k : Fin 32) :
    FloatOps.uitofp (F := Ideal) .f32 (IntOp.andi (IntOp.cmpi .sgt (m q) 0#32) (IntOp.cmpi .sgt (m k) 0#32))
      = Cert.Attn.gate (Cert.Attn.pairOn m) q k := by
  unfold Cert.Attn.gate Cert.Attn.pairOn Cert.Attn.pos
  generalize IntOp.cmpi .sgt (m q) 0#32 = c1
  generalize IntOp.cmpi .sgt (m k) 0#32 = c2
  show (((IntOp.andi c1 c2).toNat : ℝ) : EReal) = _
  rcases BitVec.eq_zero_or_eq_one c1 with rfl | rfl <;> rcases BitVec.eq_zero_or_eq_one c2 with rfl | rfl <;>
    simp [IntOp.andi]

/-- Whether a pair of rows of term (b, t) is attended. -/
abbrev onOf (x1 : Msk) (b : Fin 8) (t : Fin 1024) : Fin 32 → Fin 32 → Bool := Cert.Attn.pairOn (maskOf x1 b t)
/-- A projection of the rows of term (b, t). -/
abbrev projOf (x0 : Src) (W : Wt) (b : Fin 8) (t : Fin 1024) : Fin 32 → Fin 256 → EReal :=
  Cert.Attn.proj (rowsOf x0 b t) (matOf W)

/-- The scaled logit of head h, query row q, key row k. -/
theorem logit_apply (x0 : Src) (x2 x3 : Wt) (b : Fin 8) (t : Fin 1024) (h : Fin 8) (q k : Fin 32) :
    val_main_v11 (F := Ideal) x0 x2 x3 (ix5 b t h q k)
      = Cert.Attn.logit (projOf x0 x2 b t) (projOf x0 x3 b t) h q k := by
  rw [val_main_v11_apply, val_main_v9_apply, val_main_v10_apply, val_main_cst_apply, Ideal.hostDivf_def,
    Ideal.ofBits_def]
  unfold Cert.Attn.logit Cert.Attn.sqrtD
  refine congrArg (fun s => Ideal.div s _) (Finset.sum_congr rfl fun d _ => ?_)
  have e1 : lidx_main_v9 (ix5 b t h q k) d = ix5 b t h q d := by
    funext e; match e with | ⟨0, _⟩ => rfl | ⟨1, _⟩ => rfl | ⟨2, _⟩ => rfl | ⟨3, _⟩ => rfl | ⟨4, _⟩ => rfl
  have e2 : ridx_main_v9 (ix5 b t h q k) d = ix5 b t h k d := by
    funext e; match e with | ⟨0, _⟩ => rfl | ⟨1, _⟩ => rfl | ⟨2, _⟩ => rfl | ⟨3, _⟩ => rfl | ⟨4, _⟩ => rfl
  rw [e1, e2, headsW_apply, headsK_apply]

/-- The masked logit: the logit where the pair is attended, the fill elsewhere. -/
theorem masked_apply (x0 : Src) (x1 : Msk) (x2 x3 : Wt) (b : Fin 8) (t : Fin 1024) (h : Fin 8) (q k : Fin 32) :
    val_main_v20 (F := Ideal) x0 x1 x2 x3 (ix5 b t h q k)
      = Cert.Attn.masked (onOf x1 b t) (projOf x0 x2 b t) (projOf x0 x3 b t) h q k := by
  rw [val_main_v20_apply, val_main_call0_v0_apply, val_main_call0_v1_apply, val_main_cst_0_apply, logit_apply,
    Ideal.ofBits_def]
  have e : idx_main_call0_v0 (ix5 b t h q k) = ix5 b t (0 : Fin 1) q k := by
    funext e; match e with | ⟨0, _⟩ => rfl | ⟨1, _⟩ => rfl | ⟨2, _⟩ => rfl | ⟨3, _⟩ => rfl | ⟨4, _⟩ => rfl
  rw [e, pairBit_apply, select_pair]
  rfl

/-- In the logits' array reduced over its last axis, the reduced index (b, t, h, q) with key row k put back. -/
theorem lift_last (hR : S8x1024x8x32x32.Reduces [4] S8x1024x8x32) (b : Fin 8) (t : Fin 1024) (h : Fin 8) (q : Fin 32)
    (k : Fin (S8x1024x8x32x32.size 4)) :
    hR.lift (ix4 b t h q) k = ix5 b t h q (⟨k.val, k.isLt⟩ : Fin 32) := by
  funext d; apply Fin.ext
  fin_cases d <;> rfl

/-- The row maximum of the masked logits of head h, query row q. -/
theorem rowMax_apply (x0 : Src) (x1 : Msk) (x2 x3 : Wt) (b : Fin 8) (t : Fin 1024) (h : Fin 8) (q : Fin 32) :
    val_main_v21 (F := Ideal) x0 x1 x2 x3 (ix4 b t h q)
      = Cert.Attn.rowMax (Cert.Attn.masked (onOf x1 b t) (projOf x0 x2 b t) (projOf x0 x3 b t) h q) := by
  have hR : S8x1024x8x32x32.Reduces [4] S8x1024x8x32 := by decide
  unfold val_main_v21
  refine (Host.reduce_eq_fold_single FloatOps.maximumf _ _ _ hR Gen.h_S_ (ix4 b t h q)).trans ?_
  have hb : val_main_cst_1 (F := Ideal) (Shape.Idx.first Gen.h_S_) = (⊥ : EReal) := by
    rw [val_main_cst_1_apply]
    show Ideal.ofBits .f32 0xFF800000#32 = ⊥
    simp [Ideal.ofBits, Ideal.ieee]
  have hf : (val_main_v20 (F := Ideal) x0 x1 x2 x3 ∘ hR.lift (ix4 b t h q))
      = fun k : Fin 32 => Cert.Attn.masked (onOf x1 b t) (projOf x0 x2 b t) (projOf x0 x3 b t) h q k :=
    funext fun k => by
      show val_main_v20 (F := Ideal) x0 x1 x2 x3 (hR.lift (ix4 b t h q) k) = _
      rw [lift_last]
      exact masked_apply x0 x1 x2 x3 b t h q k
  rw [hb]
  exact congrArg (fun f => Finset.fold max (⊥ : EReal) f (Finset.univ : Finset (Fin 32))) hf

/-- The single-precision word of −∞ is the bottom of the extended reals. -/
theorem ofBits_negInf : Ideal.ofBits .f32 0xFF800000#32 = (⊥ : EReal) := by
  simp [Ideal.ofBits, Ideal.ieee]

/-- The row maximum, spread back over the key rows (the extra maximum against −∞ changes nothing). -/
theorem rowMaxB_apply (x0 : Src) (x1 : Msk) (x2 x3 : Wt) (b : Fin 8) (t : Fin 1024) (h : Fin 8) (q k : Fin 32) :
    val_main_v25 (F := Ideal) x0 x1 x2 x3 (ix5 b t h q k)
      = Cert.Attn.rowMax (Cert.Attn.masked (onOf x1 b t) (projOf x0 x2 b t) (projOf x0 x3 b t) h q) := by
  rw [val_main_v25_apply, val_main_v24_apply]
  have e : idx_main_v24 (idx_main_v25 (ix5 b t h q k)) = ix4 b t h q := by
    funext e; match e with | ⟨0, _⟩ => rfl | ⟨1, _⟩ => rfl | ⟨2, _⟩ => rfl | ⟨3, _⟩ => rfl
  rw [e, val_main_v23_apply, val_main_v22_apply, val_main_cst_2_apply, rowMax_apply, Ideal.maximumf_def,
    Ideal.ofBits_def, ofBits_negInf]
  exact max_eq_right bot_le

/-- The shifted exponential of the masked logit. -/
theorem expo_apply (x0 : Src) (x1 : Msk) (x2 x3 : Wt) (b : Fin 8) (t : Fin 1024) (h : Fin 8) (q k : Fin 32) :
    val_main_v27 (F := Ideal) x0 x1 x2 x3 (ix5 b t h q k)
      = Cert.Attn.expo (onOf x1 b t) (projOf x0 x2 b t) (projOf x0 x3 b t) h q k := by
  rw [val_main_v27_apply, val_main_v26_apply, masked_apply, rowMaxB_apply, Ideal.hostUnary_exp_def, Ideal.subf_def]
  rfl

/-- The row sum of the shifted exponentials (from zero). -/
theorem expSum_apply (x0 : Src) (x1 : Msk) (x2 x3 : Wt) (b : Fin 8) (t : Fin 1024) (h : Fin 8) (q : Fin 32) :
    val_main_v28 (F := Ideal) x0 x1 x2 x3 (ix4 b t h q)
      = ∑ k' : Fin 32, Cert.Attn.expo (onOf x1 b t) (projOf x0 x2 b t) (projOf x0 x3 b t) h q k' := by
  rw [val_main_v28_apply, val_main_cst_3_apply, Ideal.ofBits_def, Ideal.ofBits_zero_f32, zero_add]
  refine Finset.sum_congr rfl fun k _ => ?_
  have e : idx_main_v28 (ix4 b t h q) k = ix5 b t h q k := by
    funext e; match e with | ⟨0, _⟩ => rfl | ⟨1, _⟩ => rfl | ⟨2, _⟩ => rfl | ⟨3, _⟩ => rfl | ⟨4, _⟩ => rfl
  rw [e, expo_apply]

/-- The gated softmax probability. -/
theorem prob_apply (x0 : Src) (x1 : Msk) (x2 x3 : Wt) (b : Fin 8) (t : Fin 1024) (h : Fin 8) (q k : Fin 32) :
    val_main_v34 (F := Ideal) x0 x1 x2 x3 (ix5 b t h q k)
      = Cert.Attn.prob (onOf x1 b t) (projOf x0 x2 b t) (projOf x0 x3 b t) h q k := by
  rw [val_main_v34_apply, val_main_v31_apply, val_main_v30_apply, val_main_v29_apply, val_main_v33_apply,
    val_main_v32_apply]
  have e1 : idx_main_v29 (idx_main_v30 (ix5 b t h q k)) = ix4 b t h q := by
    funext e; match e with | ⟨0, _⟩ => rfl | ⟨1, _⟩ => rfl | ⟨2, _⟩ => rfl | ⟨3, _⟩ => rfl
  have e2 : idx_main_v33 (ix5 b t h q k) = ix5 b t (0 : Fin 1) q k := by
    funext e; match e with | ⟨0, _⟩ => rfl | ⟨1, _⟩ => rfl | ⟨2, _⟩ => rfl | ⟨3, _⟩ => rfl | ⟨4, _⟩ => rfl
  rw [e1, e2, expo_apply, expSum_apply, pairBit_apply, uitofp_pair, Ideal.hostDivf_def, Ideal.mulf_def]
  rfl

/-- A head's output: the probabilities' weighted sum of the values. -/
theorem headOut_apply (x0 : Src) (x1 : Msk) (x2 x3 x4 : Wt) (b : Fin 8) (t : Fin 1024) (h : Fin 8) (q d : Fin 32) :
    val_main_v35 (F := Ideal) x0 x1 x2 x3 x4 (ix5 b t h q d)
      = Cert.Attn.headOut (onOf x1 b t) (projOf x0 x2 b t) (projOf x0 x3 b t) (projOf x0 x4 b t) h q d := by
  rw [val_main_v35_apply]
  unfold Cert.Attn.headOut
  refine Finset.sum_congr rfl fun k _ => ?_
  have e1 : lidx_main_v35 (ix5 b t h q d) k = ix5 b t h q k := by
    funext e; match e with | ⟨0, _⟩ => rfl | ⟨1, _⟩ => rfl | ⟨2, _⟩ => rfl | ⟨3, _⟩ => rfl | ⟨4, _⟩ => rfl
  have e2 : ridx_main_v35 (ix5 b t h q d) k = ix5 b t h k d := by
    funext e; match e with | ⟨0, _⟩ => rfl | ⟨1, _⟩ => rfl | ⟨2, _⟩ => rfl | ⟨3, _⟩ => rfl | ⟨4, _⟩ => rfl
  rw [e1, e2, prob_apply, headsV_apply]

/-- The heads side by side: column c of row a is lane (c mod 32) of head (c / 32). -/
theorem merged_apply (x0 : Src) (x1 : Msk) (x2 x3 x4 : Wt) (b : Fin 8) (t : Fin 1024) (a : Fin 32) (c : Fin 256) :
    val_main_v37 (F := Ideal) x0 x1 x2 x3 x4 (ix4 b t a c)
      = Cert.Attn.headOut (onOf x1 b t) (projOf x0 x2 b t) (projOf x0 x3 b t) (projOf x0 x4 b t)
          (Cert.Attn.headOf c) a (Cert.Attn.laneOf c) := by
  rw [val_main_v37_apply, val_main_v36_apply, ← headOut_apply]
  refine congrArg (val_main_v35 (F := Ideal) x0 x1 x2 x3 x4) ?_
  have hb := b.isLt; have ht := t.isLt; have ha := a.isLt; have hc := c.isLt
  funext e
  apply Fin.ext
  match e with
  | ⟨0, _⟩ => show (((b.val * 1024 + t.val) * 32 + a.val) * 256 + c.val) / 8388608 = b.val; omega
  | ⟨1, _⟩ => show (((b.val * 1024 + t.val) * 32 + a.val) * 256 + c.val) / 8192 % 1024 = t.val; omega
  | ⟨2, _⟩ => show (((b.val * 1024 + t.val) * 32 + a.val) * 256 + c.val) / 32 % 8 = c.val / 32; omega
  | ⟨3, _⟩ => show (((b.val * 1024 + t.val) * 32 + a.val) * 256 + c.val) / 256 % 32 = a.val; omega
  | ⟨4, _⟩ => show (((b.val * 1024 + t.val) * 32 + a.val) * 256 + c.val) % 32 = c.val % 32; omega

/-- The reference's result array is the attention layer of each term, entry by entry. -/
theorem ref_eq_G (x0 : (⟨S8x1024x32x256, .f32⟩ : BufTy).Contents (Elt Ideal)) (x1 : (⟨S8x1024x32, .i32⟩ : BufTy).Contents (Elt Ideal))
    (x2 x3 x4 x5 : (⟨S256x256, .f32⟩ : BufTy).Contents (Elt Ideal)) :
    Read.val_main_v38 (F := Ideal) x0 x1 x2 x3 x4 x5 = Cert.Attn.G x0 x1 x2 x3 x4 x5 := by
  funext i
  obtain ⟨b, t, a, o, rfl⟩ : ∃ (b : Fin 8) (t : Fin 1024) (a : Fin 32) (o : Fin 256), i = ix4 b t a o :=
    ⟨i 0, i 1, i 2, i 3, eq_ix4 i⟩
  rw [val_main_v38_apply]
  show _ = Cert.Attn.attnRow (onOf x1 b t) (rowsOf x0 b t) (matOf x2) (matOf x3) (matOf x4) (matOf x5) a o
  unfold Cert.Attn.attnRow
  refine Finset.sum_congr rfl fun c _ => ?_
  have e1 : lidx_main_v38 (ix4 b t a o) c = ix4 b t a c := by
    funext e; match e with | ⟨0, _⟩ => rfl | ⟨1, _⟩ => rfl | ⟨2, _⟩ => rfl | ⟨3, _⟩ => rfl
  have e2 : ridx_main_v38 (ix4 b t a o) c = ix2 o c := by
    funext e; match e with | ⟨0, _⟩ => rfl | ⟨1, _⟩ => rfl
  rw [e1, e2, merged_apply]

end Cert.ReferenceIdeal.RefValue

end
-- ==== Proof.KernelForm.lean ====
/-
  The kernel body's value with its eight heads named: one function per stage (a head's slice of a projected
  block, a head's attention output, the heads merged and projected), and the stored block as these stages
  composed.  The stages are the body's own operations, regrouped; nothing is computed here.
-/
import proofs.«155731_j20847771255440_2_alg».proof.Proof.Gen.KernelIdeal.Frame

noncomputable section

namespace Cert.KernelIdeal.Form

open Cert.KernelIdeal Idealize.ShloMosaic Idealize.SL.Sem
open Cert.KernelIdeal.Facts₀ Cert.KernelIdeal.Facts

variable {F : FTy → Type} [FloatOps F] [Named F]

/-- One head of a projected [64, 32, 8, 32] block, as a [64, 32, 32] array: the slice at head offset `off`. -/
def headSlice (off : Fin 4 → Nat) (hs : S64x32x8x32.Slices off S64x32x1x32) (X : FVec F S64x32x8x32 .f32) :
    FVec F S64x32x32 .bf16 :=
  truncf .bf16 (shapeCast S64x32x32 (extractStridedSlice S64x32x1x32 off X hs) shapeCasts_S64x32x1x32_S64x32x32) bitsLt_bf16_f32

/-- One head's attention output over the 64 terms of a block: scaled logits, the masked-out pairs filled, a softmax
    over the keys shifted by the row maximum, the masked-out probabilities zeroed, then the product with the values. -/
def headAttn (off : Fin 4 → Nat) (hs : S64x32x8x32.Slices off S64x32x1x32) (Q K V : FVec F S64x32x8x32 .f32)
    (msk : IVec S64x32x32 1) (scale : F .f32) : FVec F S64x32x32 .f32 :=
  have lg : FVec F S64x32x32 .f32 := matmul dot_S64x32x32_S64x32x32_S64x32x32_2_2_1_1_0_0 none (headSlice off hs Q) (headSlice off hs K) (constant S64x32x32 .f32 0x00000000#32)
  have sc : FVec F S64x32x32 .f32 := mulf lg (broadcast S64x32x32 scale)
  have ml : FVec F S64x32x32 .f32 := select msk sc (broadcast S64x32x32 (Scalar.ofBits .f32 0xFF7FFFFF#32))
  have mx : FVec F S64x32 .f32 := maximumf (broadcast S64x32 (Scalar.ofBits .f32 0xFF800000#32)) (multiReduction .maximumf [2] S64x32 ml 0xFF800000#32 reduces_S64x32x32_S64x32 (.inl rfl) rfl)
  have sh : FVec F S64x32x32 .f32 := subf ml (broadcastTo S64x32x32 (shapeCast S64x32x1 mx shapeCasts_S64x32_S64x32x1) broadcasts_S64x32x1_S64x32x32)
  have e : FVec F S64x32x32 .f32 := exp sh
  have s : FVec F S64x32 .f32 := multiReduction .add [2] S64x32 e 0x00000000#32 reduces_S64x32x32_S64x32 (.inl rfl) rfl
  have p : FVec F S64x32x32 .f32 := divf e (broadcastTo S64x32x32 (shapeCast S64x32x1 s shapeCasts_S64x32_S64x32x1) broadcasts_S64x32x1_S64x32x32)
  have g : FVec F S64x32x32 .f32 := mulf p (sitofp .f32 (extui 32 msk natLt_1_32))
  matmul dot_S64x32x32_S64x32x32_S64x32x32_2_1_1_2_0_0 none (truncf .bf16 g bitsLt_bf16_f32) (headSlice off hs V) (constant S64x32x32 .f32 0x00000000#32)

/-- The eight heads' outputs side by side as [2048, 256] rows, through the output layer, as the stored block. -/
def mergeHeads (w : FVec F S256x256 .bf16) (o0 o1 o2 o3 o4 o5 o6 o7 : FVec F S64x32x32 .f32) : FVec F S1x64x32x256 .f32 :=
  have cat : FVec F S64x32x8x32 .f32 := concatenate S64x32x8x32 2 [⟨S64x32x1x32, shapeCast S64x32x1x32 o0 shapeCasts_S64x32x32_S64x32x1x32⟩, ⟨S64x32x1x32, shapeCast S64x32x1x32 o1 shapeCasts_S64x32x32_S64x32x1x32⟩, ⟨S64x32x1x32, shapeCast S64x32x1x32 o2 shapeCasts_S64x32x32_S64x32x1x32⟩, ⟨S64x32x1x32, shapeCast S64x32x1x32 o3 shapeCasts_S64x32x32_S64x32x1x32⟩, ⟨S64x32x1x32, shapeCast S64x32x1x32 o4 shapeCasts_S64x32x32_S64x32x1x32⟩, ⟨S64x32x1x32, shapeCast S64x32x1x32 o5 shapeCasts_S64x32x32_S64x32x1x32⟩, ⟨S64x32x1x32, shapeCast S64x32x1x32 o6 shapeCasts_S64x32x32_S64x32x1x32⟩, ⟨S64x32x1x32, shapeCast S64x32x1x32 o7 shapeCasts_S64x32x32_S64x32x1x32⟩] concatenates_S64x32x1x32_S64x32x1x32_S64x32x1x32_S64x32x1x32_S64x32x1x32_S64x32x1x32_S64x32x1x32_S64x32x1x32_S64x32x8x32_d2
  have flat : FVec F S2048x256 .bf16 := truncf .bf16 (shapeCast S2048x256 cat shapeCasts_S64x32x8x32_S2048x256) bitsLt_bf16_f32
  have out : FVec F S2048x256 .f32 := matmul dot_S2048x256_S256x256_S2048x256_1_0_0_1_n_n none flat w (constant S2048x256 .f32 0x00000000#32)
  shapeCast S1x64x32x256 (shapeCast S64x32x256 out shapeCasts_S2048x256_S64x32x256) shapeCasts_S64x32x256_S1x64x32x256

/-- The block the body stores, from the six loaded blocks: the stages composed. -/
def stored (x0 : Vec F S1x64x32x256 .f32) (x1 : Vec F S1x64x32 .i32) (x2 x3 x4 x5 : Vec F S256x256 .bf16) : FVec F S1x64x32x256 .f32 :=
  have Q : FVec F S64x32x8x32 .f32 := Gen.k0_pay4 (View.ld x0 Gen.r0_0) (View.ld x2 Gen.r0_1)
  have K : FVec F S64x32x8x32 .f32 := Gen.k0_pay5 (View.ld x0 Gen.r0_0) (View.ld x3 Gen.r0_1)
  have V : FVec F S64x32x8x32 .f32 := Gen.k0_pay6 (View.ld x0 Gen.r0_0) (View.ld x4 Gen.r0_1)
  have M : IVec S64x32x32 1 := Gen.k0_pay7 (View.ld x1 Gen.r0_2)
  have sc : F .f32 := Named.named κ "inv_sqrt_d" 0x3E3504F3#32
  mergeHeads (Gen.k0_pay3 (View.ld x5 Gen.r0_1))
    (headAttn ![0, 0, 0, 0] slices_S64x32x8x32_o0_0_0_0_S64x32x1x32 Q K V M sc)
    (headAttn ![0, 0, 1, 0] slices_S64x32x8x32_o0_0_1_0_S64x32x1x32 Q K V M sc)
    (headAttn ![0, 0, 2, 0] slices_S64x32x8x32_o0_0_2_0_S64x32x1x32 Q K V M sc)
    (headAttn ![0, 0, 3, 0] slices_S64x32x8x32_o0_0_3_0_S64x32x1x32 Q K V M sc)
    (headAttn ![0, 0, 4, 0] slices_S64x32x8x32_o0_0_4_0_S64x32x1x32 Q K V M sc)
    (headAttn ![0, 0, 5, 0] slices_S64x32x8x32_o0_0_5_0_S64x32x1x32 Q K V M sc)
    (headAttn ![0, 0, 6, 0] slices_S64x32x8x32_o0_0_6_0_S64x32x1x32 Q K V M sc)
    (headAttn ![0, 0, 7, 0] slices_S64x32x8x32_o0_0_7_0_S64x32x1x32 Q K V M sc)

/-- The body's one store is of the composed stages. -/
theorem out0_6_eq (x0 : Vec F S1x64x32x256 .f32) (x1 : Vec F S1x64x32 .i32) (x2 x3 x4 x5 : Vec F S256x256 .bf16) :
    Gen.out0_6 x0 x1 x2 x3 x4 x5 = View.canon [⟨Gen.r0_0, stored x0 x1 x2 x3 x4 x5⟩] := rfl

end Cert.KernelIdeal.Form

end
-- ==== Proof.HeadValue.lean ====
/-
  One head of the attention kernel, read at an index, on the extended reals.

  A head's slice of a projected [64, 32, 8, 32] block at (t, a, d) is the block at (t, a, h, d).  One head's attention
  output at (t, q, d) is the specification's head output for term t: the logits are sums of products over the 32 lanes
  of the head, scaled by the reciprocal of the single-precision square root of 32, the masked-out pairs take the
  fill value, a softmax over the keys is shifted by the row maximum, the masked-out probabilities are zeroed, and the
  result is the sum over the keys of probability times value.
-/
import proofs.«155731_j20847771255440_2_alg».proof.Proof.KernelForm
import proofs.«155731_j20847771255440_2_alg».proof.Proof.AttnSpec
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.HeadValue

open Cert.KernelIdeal Idealize.ShloMosaic Idealize.ShloMosaic.ValueIdx
open Cert.KernelIdeal.Facts₀

/-- A head's slice read at (t, a, d) is the projected block at (t, a, h, d). -/
theorem headSlice_apply (h : Fin 8) (hs : S64x32x8x32.Slices ![0, 0, h.val, 0] S64x32x1x32) (X : FVec Ideal S64x32x8x32 .f32)
    (t : Fin 64) (a d : Fin 32) :
    Form.headSlice ![0, 0, h.val, 0] hs X (ix3 t a d) = X (ix4 t a h d) := by
  unfold Form.headSlice
  show shapeCast S64x32x32 (extractStridedSlice S64x32x1x32 ![0, 0, h.val, 0] X hs) shapeCasts_S64x32x1x32_S64x32x32 (ix3 t a d) = _
  refine (shapeCast_apply _ _ (ix3 t a d) (ix4 t a (0 : Fin 1) d) ?_).trans ?_
  · rw [Shape.rowMajor_val_four, Shape.rowMajor_val_three]
    show ((t.val * 32 + a.val) * 1 + 0) * 32 + d.val = (t.val * 32 + a.val) * 32 + d.val
    omega
  · refine extractStridedSlice_apply _ X hs _ (ix4 t a h d) fun ax => ?_
    match ax with
    | ⟨0, _⟩ => show t.val = 0 + t.val; omega
    | ⟨1, _⟩ => show a.val = 0 + a.val; omega
    | ⟨2, _⟩ => show h.val = h.val + 0; omega
    | ⟨3, _⟩ => show d.val = 0 + d.val; omega

/-! ## The two batched products read at an index -/

/-- In the logits' product, the left operand's index at result index i and contraction index q has i's batch coordinate first … -/
theorem dl_lhs0 (i : S64x32x32.Idx) (q : dot_S64x32x32_S64x32x32_S64x32x32_2_2_1_1_0_0.contr.Idx) : (dot_S64x32x32_S64x32x32_S64x32x32_2_2_1_1_0_0.lhsIdx i q 0).val = (i 0).val := by
  unfold DotDims.lhsIdx
  rw [dif_pos (show (0 : Fin S64x32x32.rank) ∈ dot_S64x32x32_S64x32x32_S64x32x32_2_2_1_1_0_0.lhsBatch by decide)]
  rfl
/-- … i's row coordinate second … -/
theorem dl_lhs1 (i : S64x32x32.Idx) (q : dot_S64x32x32_S64x32x32_S64x32x32_2_2_1_1_0_0.contr.Idx) : (dot_S64x32x32_S64x32x32_S64x32x32_2_2_1_1_0_0.lhsIdx i q 1).val = (i 1).val := by
  unfold DotDims.lhsIdx
  rw [dif_neg (show ¬(1 : Fin S64x32x32.rank) ∈ dot_S64x32x32_S64x32x32_S64x32x32_2_2_1_1_0_0.lhsBatch by decide), dif_pos (show (1 : Fin S64x32x32.rank) ∈ dot_S64x32x32_S64x32x32_S64x32x32_2_2_1_1_0_0.lhsNonContracting by decide)]
  rfl
/-- … and the contraction coordinate last. -/
theorem dl_lhs2 (i : S64x32x32.Idx) (q : dot_S64x32x32_S64x32x32_S64x32x32_2_2_1_1_0_0.contr.Idx) : (dot_S64x32x32_S64x32x32_S64x32x32_2_2_1_1_0_0.lhsIdx i q 2).val = (q ⟨0, by decide⟩).val :=
  dot_S64x32x32_S64x32x32_S64x32x32_2_2_1_1_0_0.lhsIdx_val_of_single rfl i q
/-- The right operand's index has i's batch coordinate first … -/
theorem dl_rhs0 (i : S64x32x32.Idx) (q : dot_S64x32x32_S64x32x32_S64x32x32_2_2_1_1_0_0.contr.Idx) : (dot_S64x32x32_S64x32x32_S64x32x32_2_2_1_1_0_0.rhsIdx i q 0).val = (i 0).val := by
  unfold DotDims.rhsIdx
  rw [dif_pos (show (0 : Fin S64x32x32.rank) ∈ dot_S64x32x32_S64x32x32_S64x32x32_2_2_1_1_0_0.rhsBatch by decide)]
  rfl
/-- … i's column coordinate on its free axis … -/
theorem dl_rhs1 (i : S64x32x32.Idx) (q : dot_S64x32x32_S64x32x32_S64x32x32_2_2_1_1_0_0.contr.Idx) : (dot_S64x32x32_S64x32x32_S64x32x32_2_2_1_1_0_0.rhsIdx i q 1).val = (i 2).val := by
  unfold DotDims.rhsIdx
  rw [dif_neg (show ¬(1 : Fin S64x32x32.rank) ∈ dot_S64x32x32_S64x32x32_S64x32x32_2_2_1_1_0_0.rhsBatch by decide), dif_pos (show (1 : Fin S64x32x32.rank) ∈ dot_S64x32x32_S64x32x32_S64x32x32_2_2_1_1_0_0.rhsNonContracting by decide)]
  rfl
/-- … and the contraction coordinate on its contracted axis. -/
theorem dl_rhs2 (i : S64x32x32.Idx) (q : dot_S64x32x32_S64x32x32_S64x32x32_2_2_1_1_0_0.contr.Idx) : (dot_S64x32x32_S64x32x32_S64x32x32_2_2_1_1_0_0.rhsIdx i q 2).val = (q ⟨0, by decide⟩).val :=
  dot_S64x32x32_S64x32x32_S64x32x32_2_2_1_1_0_0.rhsIdx_val_of_single rfl i q

/-- The logits' product (batch axis 0, both operands contracted over their last axis) into a zero accumulator, at
    (t, q, k): the sum over the lanes d of x(t, q, d) · y(t, k, d). -/
theorem logits_apply {φ₁ φ₂ : FTy} (x : FVec Ideal S64x32x32 φ₁) (y : FVec Ideal S64x32x32 φ₂) (t : Fin 64) (q k : Fin 32) :
    matmul dot_S64x32x32_S64x32x32_S64x32x32_2_2_1_1_0_0 none x y (constant (F := Ideal) S64x32x32 .f32 0x00000000#32) (ix3 t q k)
      = ∑ d : Fin 32, x (ix3 t q d) * y (ix3 t k d) := by
  simp only [matmul]
  rw [Ideal.matmul_constant_zero_apply, ← Equiv.sum_comp (contrEquiv1 dot_S64x32x32_S64x32x32_S64x32x32_2_2_1_1_0_0 32 rfl rfl).symm]
  refine Finset.sum_congr rfl fun d _ => ?_
  have hk := contrEquiv1_symm_val dot_S64x32x32_S64x32x32_S64x32x32_2_2_1_1_0_0 32 rfl rfl d
  have el : dot_S64x32x32_S64x32x32_S64x32x32_2_2_1_1_0_0.lhsIdx (ix3 t q k) ((contrEquiv1 dot_S64x32x32_S64x32x32_S64x32x32_2_2_1_1_0_0 32 rfl rfl).symm d) = ix3 t q d := funext fun a => Fin.ext (by
    match a with
    | ⟨0, _⟩ => exact dl_lhs0 _ _
    | ⟨1, _⟩ => exact dl_lhs1 _ _
    | ⟨2, _⟩ => exact (dl_lhs2 _ _).trans hk)
  have er : dot_S64x32x32_S64x32x32_S64x32x32_2_2_1_1_0_0.rhsIdx (ix3 t q k) ((contrEquiv1 dot_S64x32x32_S64x32x32_S64x32x32_2_2_1_1_0_0 32 rfl rfl).symm d) = ix3 t k d := funext fun a => Fin.ext (by
    match a with
    | ⟨0, _⟩ => exact dl_rhs0 _ _
    | ⟨1, _⟩ => exact dl_rhs1 _ _
    | ⟨2, _⟩ => exact (dl_rhs2 _ _).trans hk)
  rw [el, er]

/-- In the output product, the left operand's index at result index i and contraction index q has i's batch coordinate first … -/
theorem dv_lhs0 (i : S64x32x32.Idx) (q : dot_S64x32x32_S64x32x32_S64x32x32_2_1_1_2_0_0.contr.Idx) : (dot_S64x32x32_S64x32x32_S64x32x32_2_1_1_2_0_0.lhsIdx i q 0).val = (i 0).val := by
  unfold DotDims.lhsIdx
  rw [dif_pos (show (0 : Fin S64x32x32.rank) ∈ dot_S64x32x32_S64x32x32_S64x32x32_2_1_1_2_0_0.lhsBatch by decide)]
  rfl
/-- … i's row coordinate second … -/
theorem dv_lhs1 (i : S64x32x32.Idx) (q : dot_S64x32x32_S64x32x32_S64x32x32_2_1_1_2_0_0.contr.Idx) : (dot_S64x32x32_S64x32x32_S64x32x32_2_1_1_2_0_0.lhsIdx i q 1).val = (i 1).val := by
  unfold DotDims.lhsIdx
  rw [dif_neg (show ¬(1 : Fin S64x32x32.rank) ∈ dot_S64x32x32_S64x32x32_S64x32x32_2_1_1_2_0_0.lhsBatch by decide), dif_pos (show (1 : Fin S64x32x32.rank) ∈ dot_S64x32x32_S64x32x32_S64x32x32_2_1_1_2_0_0.lhsNonContracting by decide)]
  rfl
/-- … and the contraction coordinate last. -/
theorem dv_lhs2 (i : S64x32x32.Idx) (q : dot_S64x32x32_S64x32x32_S64x32x32_2_1_1_2_0_0.contr.Idx) : (dot_S64x32x32_S64x32x32_S64x32x32_2_1_1_2_0_0.lhsIdx i q 2).val = (q ⟨0, by decide⟩).val :=
  dot_S64x32x32_S64x32x32_S64x32x32_2_1_1_2_0_0.lhsIdx_val_of_single rfl i q
/-- The right operand's index has i's batch coordinate first … -/
theorem dv_rhs0 (i : S64x32x32.Idx) (q : dot_S64x32x32_S64x32x32_S64x32x32_2_1_1_2_0_0.contr.Idx) : (dot_S64x32x32_S64x32x32_S64x32x32_2_1_1_2_0_0.rhsIdx i q 0).val = (i 0).val := by
  unfold DotDims.rhsIdx
  rw [dif_pos (show (0 : Fin S64x32x32.rank) ∈ dot_S64x32x32_S64x32x32_S64x32x32_2_1_1_2_0_0.rhsBatch by decide)]
  rfl
/-- … i's column coordinate on its free axis … -/
theorem dv_rhs2 (i : S64x32x32.Idx) (q : dot_S64x32x32_S64x32x32_S64x32x32_2_1_1_2_0_0.contr.Idx) : (dot_S64x32x32_S64x32x32_S64x32x32_2_1_1_2_0_0.rhsIdx i q 2).val = (i 2).val := by
  unfold DotDims.rhsIdx
  rw [dif_neg (show ¬(2 : Fin S64x32x32.rank) ∈ dot_S64x32x32_S64x32x32_S64x32x32_2_1_1_2_0_0.rhsBatch by decide), dif_pos (show (2 : Fin S64x32x32.rank) ∈ dot_S64x32x32_S64x32x32_S64x32x32_2_1_1_2_0_0.rhsNonContracting by decide)]
  rfl
/-- … and the contraction coordinate on its contracted axis. -/
theorem dv_rhs1 (i : S64x32x32.Idx) (q : dot_S64x32x32_S64x32x32_S64x32x32_2_1_1_2_0_0.contr.Idx) : (dot_S64x32x32_S64x32x32_S64x32x32_2_1_1_2_0_0.rhsIdx i q 1).val = (q ⟨0, by decide⟩).val :=
  dot_S64x32x32_S64x32x32_S64x32x32_2_1_1_2_0_0.rhsIdx_val_of_single rfl i q

/-- The output product (batch axis 0, the left operand's last axis contracted with the right operand's middle axis)
    into a zero accumulator, at (t, q, d): the sum over the keys k of x(t, q, k) · y(t, k, d). -/
theorem pv_apply {φ₁ φ₂ : FTy} (x : FVec Ideal S64x32x32 φ₁) (y : FVec Ideal S64x32x32 φ₂) (t : Fin 64) (q d : Fin 32) :
    matmul dot_S64x32x32_S64x32x32_S64x32x32_2_1_1_2_0_0 none x y (constant (F := Ideal) S64x32x32 .f32 0x00000000#32) (ix3 t q d)
      = ∑ k : Fin 32, x (ix3 t q k) * y (ix3 t k d) := by
  simp only [matmul]
  rw [Ideal.matmul_constant_zero_apply, ← Equiv.sum_comp (contrEquiv1 dot_S64x32x32_S64x32x32_S64x32x32_2_1_1_2_0_0 32 rfl rfl).symm]
  refine Finset.sum_congr rfl fun k _ => ?_
  have hk := contrEquiv1_symm_val dot_S64x32x32_S64x32x32_S64x32x32_2_1_1_2_0_0 32 rfl rfl k
  have el : dot_S64x32x32_S64x32x32_S64x32x32_2_1_1_2_0_0.lhsIdx (ix3 t q d) ((contrEquiv1 dot_S64x32x32_S64x32x32_S64x32x32_2_1_1_2_0_0 32 rfl rfl).symm k) = ix3 t q k := funext fun a => Fin.ext (by
    match a with
    | ⟨0, _⟩ => exact dv_lhs0 _ _
    | ⟨1, _⟩ => exact dv_lhs1 _ _
    | ⟨2, _⟩ => exact (dv_lhs2 _ _).trans hk)
  have er : dot_S64x32x32_S64x32x32_S64x32x32_2_1_1_2_0_0.rhsIdx (ix3 t q d) ((contrEquiv1 dot_S64x32x32_S64x32x32_S64x32x32_2_1_1_2_0_0 32 rfl rfl).symm k) = ix3 t k d := funext fun a => Fin.ext (by
    match a with
    | ⟨0, _⟩ => exact dv_rhs0 _ _
    | ⟨1, _⟩ => exact (dv_rhs1 _ _).trans hk
    | ⟨2, _⟩ => exact dv_rhs2 _ _)
  rw [el, er]

/-! ## Constants -/

/-- The pattern of single-precision −∞ denotes the bottom element. -/
theorem ofBits_neg_inf : Ideal.ofBits .f32 0xFF800000#32 = ⊥ := by
  simp [Ideal.ofBits, Ideal.ieee]

/-- The logits' divisor, the single-precision number nearest √32, is the rational 11863283 / 2^21. -/
theorem sqrtD_eq : Cert.Attn.sqrtD = ((11863283 / 2097152 : ℝ) : EReal) := by
  unfold Cert.Attn.sqrtD
  simp [Ideal.ofBits, Ideal.ieee, -EReal.coe_mul]; norm_num

/-- The kernel's named scale denotes the reciprocal of that rational. -/
theorem scale_eq : Named.named (F := Ideal) Cert.KernelIdeal.κ "inv_sqrt_d" (φ := .f32) 0x3E3504F3#32
    = ((2097152 / 11863283 : ℝ) : EReal) :=
  IdealRules.named_const.ideal_named_scalar _ _ _ _ rfl

/-- Multiplying by the named scale is dividing by the divisor, on every extended real. -/
theorem mul_scale (x : EReal) :
    x * Named.named (F := Ideal) Cert.KernelIdeal.κ "inv_sqrt_d" (φ := .f32) 0x3E3504F3#32 = Ideal.div x Cert.Attn.sqrtD := by
  rw [scale_eq, sqrtD_eq, Ideal.div_coe (by norm_num : (11863283 / 2097152 : ℝ) ≠ 0)]
  congr 2
  norm_num

/-! ## The gate: a one-bit mask entry widened and converted -/

/-- The bit 1, widened to 32 bits and converted, is the real 1. -/
theorem gate_one : FloatOps.sitofp (F := Ideal) .f32 ((1#1 : BitVec 1).setWidth 32) = 1 := by
  show (((((1#1 : BitVec 1).setWidth 32).toInt : ℤ) : ℝ) : EReal) = 1
  have h : ((1#1 : BitVec 1).setWidth 32).toInt = 1 := by decide
  rw [h]; simp

/-- The bit 0, widened to 32 bits and converted, is the real 0. -/
theorem gate_zero : FloatOps.sitofp (F := Ideal) .f32 ((0#1 : BitVec 1).setWidth 32) = 0 := by
  show (((((0#1 : BitVec 1).setWidth 32).toInt : ℤ) : ℝ) : EReal) = 0
  have h : ((0#1 : BitVec 1).setWidth 32).toInt = 0 := by decide
  rw [h]; simp

/-! ## Reductions over the last axis and the keepdims column -/

/-- In a [64, 32, 32] array reduced over its last axis, the reduced index (t, q) with coordinate j put back is (t, q, j). -/
theorem lift_last (h : S64x32x32.Reduces [2] S64x32) (t : Fin 64) (q : Fin 32) (j : Fin (S64x32x32.size 2)) :
    h.lift (ix2 t q) j = ix3 t q (⟨j.val, j.isLt⟩ : Fin 32) := by
  funext d; apply Fin.ext
  fin_cases d <;> rfl

/-- A maximum-reduction over the last axis from −∞, at (t, q): the fold of max from the bottom element over the row. -/
theorem rowMax_apply (src : FVec Ideal S64x32x32 .f32) (h : S64x32x32.Reduces [2] S64x32) (hφ : FKind.Formats .f32)
    (hacc : (0xFF800000#32 : BitVec 32) = FKind.maximumf.neutral .f32 hφ) (t : Fin 64) (q : Fin 32) :
    multiReduction .maximumf [2] S64x32 src 0xFF800000#32 h hφ hacc (ix2 t q)
      = (Finset.univ : Finset (Fin 32)).fold max ⊥ fun k => src (ix3 t q k) := by
  refine (Ideal.multiReduction_maximumf_single src _ h hφ hacc (ix2 t q)).trans ?_
  rw [Ideal.ofBits_def, ofBits_neg_inf]
  refine congrArg (fun f => Finset.fold max ⊥ f (Finset.univ : Finset (Fin 32))) ?_
  funext k
  exact congrArg src (lift_last h t q k)

/-- A sum-reduction over the last axis, at (t, q): the sum over the row. -/
theorem rowSum_apply (src : FVec Ideal S64x32x32 .f32) (h : S64x32x32.Reduces [2] S64x32) (hφ : FKind.Formats .f32)
    (hacc : (0x00000000#32 : BitVec 32) = FKind.add.neutral .f32 hφ) (t : Fin 64) (q : Fin 32) :
    multiReduction .add [2] S64x32 src 0x00000000#32 h hφ hacc (ix2 t q) = ∑ k : Fin 32, src (ix3 t q k) := by
  refine (Ideal.multiReduction_add_single src _ h hφ hacc (ix2 t q)).trans ?_
  refine Finset.sum_congr rfl fun k _ => ?_
  exact congrArg src (lift_last h t q k)

/-- A [64, 32] array given a trailing unit axis and broadcast along it reads, at (t, q, k), the array at (t, q). -/
theorem keep_apply {α : Type} (v : S64x32.Idx → α) (t : Fin 64) (q k : Fin 32) :
    broadcastTo S64x32x32 (shapeCast S64x32x1 v shapeCasts_S64x32_S64x32x1) broadcasts_S64x32x1_S64x32x32 (ix3 t q k) = v (ix2 t q) := by
  refine (broadcastTo_apply _ _ (ix3 t q k) (ix3 t q (0 : Fin 1)) fun ax => ?_).trans ?_
  · match ax with
    | ⟨0, _⟩ => rfl
    | ⟨1, _⟩ => rfl
    | ⟨2, _⟩ => rfl
  · refine shapeCast_apply v _ (ix3 t q (0 : Fin 1)) (ix2 t q) ?_
    rw [Shape.rowMajor_val_three, Shape.rowMajor_val_two]
    show t.val * 32 + q.val = (t.val * 32 + q.val) * 1 + 0
    omega

/-! ## The stages of one head, named -/

/-- The scaled logits of two head slices, with the fill where the mask bit is off. -/
def maskedLogits (x y : FVec Ideal S64x32x32 .bf16) (msk : IVec S64x32x32 1) (scale : Ideal .f32) : FVec Ideal S64x32x32 .f32 :=
  select msk (mulf (matmul dot_S64x32x32_S64x32x32_S64x32x32_2_2_1_1_0_0 none x y (constant S64x32x32 .f32 0x00000000#32)) (broadcast S64x32x32 scale))
    (broadcast S64x32x32 (Scalar.ofBits (F := Ideal) .f32 0xFF7FFFFF#32))

/-- The exponentials of a [64, 32, 32] array, each row shifted by its maximum. -/
def shiftExp (ml : FVec Ideal S64x32x32 .f32) : FVec Ideal S64x32x32 .f32 :=
  exp (subf ml (broadcastTo S64x32x32 (shapeCast S64x32x1
    (maximumf (broadcast S64x32 (Scalar.ofBits (F := Ideal) .f32 0xFF800000#32))
      (multiReduction .maximumf [2] S64x32 ml 0xFF800000#32 reduces_S64x32x32_S64x32 (.inl rfl) rfl))
    shapeCasts_S64x32_S64x32x1) broadcasts_S64x32x1_S64x32x32))

/-- A [64, 32, 32] array divided by its row sums, then multiplied by the mask bits as numbers. -/
def gated (e : FVec Ideal S64x32x32 .f32) (msk : IVec S64x32x32 1) : FVec Ideal S64x32x32 .f32 :=
  mulf (divf e (broadcastTo S64x32x32 (shapeCast S64x32x1
      (multiReduction .add [2] S64x32 e 0x00000000#32 reduces_S64x32x32_S64x32 (.inl rfl) rfl)
      shapeCasts_S64x32_S64x32x1) broadcasts_S64x32x1_S64x32x32))
    (sitofp .f32 (extui 32 msk natLt_1_32))

/-- One head's attention output is these stages composed, then the product with the head's values. -/
theorem headAttn_eq (off : Fin 4 → Nat) (hs : S64x32x8x32.Slices off S64x32x1x32) (Q K V : FVec Ideal S64x32x8x32 .f32)
    (msk : IVec S64x32x32 1) (scale : Ideal .f32) :
    Form.headAttn off hs Q K V msk scale
      = matmul dot_S64x32x32_S64x32x32_S64x32x32_2_1_1_2_0_0 none
          (truncf .bf16 (gated (shiftExp (maskedLogits (Form.headSlice off hs Q) (Form.headSlice off hs K) msk scale)) msk) bitsLt_bf16_f32)
          (Form.headSlice off hs V) (constant S64x32x32 .f32 0x00000000#32) := rfl

/-- The masked logits at (t, q, k): the lanes' sum of products divided by the divisor where the pair is on, the fill
    where it is off. -/
theorem maskedLogits_apply (x y : FVec Ideal S64x32x32 .bf16) (msk : IVec S64x32x32 1) (on : Fin 64 → Fin 32 → Fin 32 → Bool)
    (hm : ∀ (t : Fin 64) (q k : Fin 32), msk (ix3 t q k) = if on t q k then 1#1 else 0#1) (t : Fin 64) (q k : Fin 32) :
    maskedLogits x y msk (Named.named (F := Ideal) Cert.KernelIdeal.κ "inv_sqrt_d" (φ := .f32) 0x3E3504F3#32) (ix3 t q k)
      = if on t q k then Ideal.div (∑ d : Fin 32, x (ix3 t q d) * y (ix3 t k d)) Cert.Attn.sqrtD else Cert.Attn.fill := by
  unfold maskedLogits
  refine (select_apply _ _ _ _).trans ?_
  rw [hm t q k]
  by_cases ho : on t q k = true
  · rw [if_pos ho, if_pos ho]
    refine (select_one _ _).trans ?_
    refine (congrArg (· * Named.named (F := Ideal) Cert.KernelIdeal.κ "inv_sqrt_d" (φ := .f32) 0x3E3504F3#32) (logits_apply x y t q k)).trans ?_
    exact mul_scale _
  · rw [if_neg ho, if_neg ho]
    exact select_zero _ _

/-- The shifted exponentials at (t, q, k). -/
theorem shiftExp_apply (ml : FVec Ideal S64x32x32 .f32) (t : Fin 64) (q k : Fin 32) :
    shiftExp ml (ix3 t q k) = Ideal.exp (ml (ix3 t q k) - Cert.Attn.rowMax fun k' => ml (ix3 t q k')) := by
  unfold shiftExp
  refine congrArg (fun z => Ideal.exp (ml (ix3 t q k) - z)) ?_
  refine (keep_apply _ t q k).trans ?_
  refine (congrArg₂ max ofBits_neg_inf (rowMax_apply ml _ _ _ t q)).trans ?_
  exact max_bot_left _

/-- The gated probabilities at (t, q, k). -/
theorem gated_apply (e : FVec Ideal S64x32x32 .f32) (msk : IVec S64x32x32 1) (on : Fin 64 → Fin 32 → Fin 32 → Bool)
    (hm : ∀ (t : Fin 64) (q k : Fin 32), msk (ix3 t q k) = if on t q k then 1#1 else 0#1) (t : Fin 64) (q k : Fin 32) :
    gated e msk (ix3 t q k)
      = Ideal.div (e (ix3 t q k)) (∑ k' : Fin 32, e (ix3 t q k')) * Cert.Attn.gate (on t) q k := by
  unfold gated
  refine congrArg₂ (· * ·) ?_ ?_
  · refine congrArg (Ideal.div (e (ix3 t q k))) ?_
    exact (keep_apply _ t q k).trans (rowSum_apply e _ _ _ t q)
  · refine (sitofp_apply _ _).trans ?_
    rw [extui_apply, hm t q k]
    unfold Cert.Attn.gate
    by_cases ho : on t q k = true
    · rw [if_pos ho, if_pos ho]; exact gate_one
    · rw [if_neg ho, if_neg ho]; exact gate_zero

/-- A head's slice at (t, a, d) is the specification's row function at column 32 h + d. -/
theorem slice_spec (h : Fin 8) (hs : S64x32x8x32.Slices ![0, 0, h.val, 0] S64x32x1x32) (X : FVec Ideal S64x32x8x32 .f32)
    (t : Fin 64) (a d : Fin 32) :
    Form.headSlice ![0, 0, h.val, 0] hs X (ix3 t a d)
      = X (ix4 t a (Cert.Attn.headOf (Cert.Attn.hcol h d)) (Cert.Attn.laneOf (Cert.Attn.hcol h d))) := by
  rw [Cert.Attn.headOf_hcol, Cert.Attn.laneOf_hcol]
  exact headSlice_apply h hs X t a d

/-- One head's attention output at (t, q, d) is the specification's head output for term t, over the three projected
    blocks read as rows of 256 columns and the mask bits read as the pairs that are on. -/
theorem headAttn_apply (h : Fin 8) (hs : S64x32x8x32.Slices ![0, 0, h.val, 0] S64x32x1x32) (Q K V : FVec Ideal S64x32x8x32 .f32)
    (msk : IVec S64x32x32 1) (on : Fin 64 → Fin 32 → Fin 32 → Bool)
    (hm : ∀ (t : Fin 64) (q k : Fin 32), msk (ix3 t q k) = if on t q k then 1#1 else 0#1) (t : Fin 64) (q d : Fin 32) :
    Form.headAttn ![0, 0, h.val, 0] hs Q K V msk (Named.named (F := Ideal) Cert.KernelIdeal.κ "inv_sqrt_d" (φ := .f32) 0x3E3504F3#32) (ix3 t q d)
      = Cert.Attn.headOut (on t)
          (fun a c => Q (ix4 t a (Cert.Attn.headOf c) (Cert.Attn.laneOf c)))
          (fun a c => K (ix4 t a (Cert.Attn.headOf c) (Cert.Attn.laneOf c)))
          (fun a c => V (ix4 t a (Cert.Attn.headOf c) (Cert.Attn.laneOf c))) h q d := by
  have hml : ∀ k : Fin 32,
      maskedLogits (Form.headSlice ![0, 0, h.val, 0] hs Q) (Form.headSlice ![0, 0, h.val, 0] hs K) msk
          (Named.named (F := Ideal) Cert.KernelIdeal.κ "inv_sqrt_d" (φ := .f32) 0x3E3504F3#32) (ix3 t q k)
        = Cert.Attn.masked (on t)
            (fun a c => Q (ix4 t a (Cert.Attn.headOf c) (Cert.Attn.laneOf c)))
            (fun a c => K (ix4 t a (Cert.Attn.headOf c) (Cert.Attn.laneOf c))) h q k := by
    intro k
    refine (maskedLogits_apply _ _ msk on hm t q k).trans ?_
    unfold Cert.Attn.masked Cert.Attn.logit
    refine congrArg (fun z => if on t q k = true then Ideal.div z Cert.Attn.sqrtD else Cert.Attn.fill) ?_
    refine Finset.sum_congr rfl fun d' _ => ?_
    rw [slice_spec h hs Q t q d', slice_spec h hs K t k d']
  have hex : ∀ k : Fin 32,
      shiftExp (maskedLogits (Form.headSlice ![0, 0, h.val, 0] hs Q) (Form.headSlice ![0, 0, h.val, 0] hs K) msk
          (Named.named (F := Ideal) Cert.KernelIdeal.κ "inv_sqrt_d" (φ := .f32) 0x3E3504F3#32)) (ix3 t q k)
        = Cert.Attn.expo (on t)
            (fun a c => Q (ix4 t a (Cert.Attn.headOf c) (Cert.Attn.laneOf c)))
            (fun a c => K (ix4 t a (Cert.Attn.headOf c) (Cert.Attn.laneOf c))) h q k := by
    intro k
    refine (shiftExp_apply _ t q k).trans ?_
    unfold Cert.Attn.expo
    exact congrArg₂ (fun a b => Ideal.exp (a - b)) (hml k) (congrArg Cert.Attn.rowMax (funext hml))
  rw [headAttn_eq]
  refine (pv_apply _ _ t q d).trans ?_
  unfold Cert.Attn.headOut
  refine Finset.sum_congr rfl fun k _ => ?_
  refine congrArg₂ (· * ·) ?_ (slice_spec h hs V t k d)
  refine (gated_apply _ msk on hm t q k).trans ?_
  unfold Cert.Attn.prob
  refine congrArg₂ (fun a b => Ideal.div a b * Cert.Attn.gate (on t) q k) (hex k) ?_
  exact Finset.sum_congr rfl fun k' _ => hex k'

end Cert.KernelIdeal.HeadValue

end
-- ==== Proof.BlockStages.lean ====
/-
  The outer stages of the attention block, read at one index on the extended reals.

  A block holds 64 terms of 32 rows of 256 features.  Three linear layers send the 2048 rows through a
  [256, 256] matrix each and regroup the 256 output columns as 8 heads of 32 lanes: entry (t, a, h, d) of a
  projected block is the dot product of row (t, a) with column 32 h + d of the matrix.  The mask of a pair of
  rows (q, k) of term t is the sign test of the product of the two rows' mask words.  Finally the eight heads'
  outputs, laid side by side as 256 columns, go through a fourth matrix: entry (0, t, a, c) of the stored
  block is the sum over the 256 hidden columns j of head j / 32 at lane j % 32, times the matrix at (j, c).
  A load of a whole buffer through the rectangle at offset zero is the buffer itself.
-/
import proofs.«155731_j20847771255440_2_alg».proof.Proof.KernelForm
import proofs.«155731_j20847771255440_2_alg».proof.Proof.AttnSpec
import Idealize.ShloMosaic.Lib.Pipeline.Value
import Idealize.ShloMosaic.Lib.ValueIdx
import Idealize.ShloMosaic.PureOps.Ideal.Laws

noncomputable section

namespace Cert.KernelIdeal.BlockStages

open Cert.KernelIdeal Idealize.ShloMosaic Idealize.ShloMosaic.ValueIdx

/-! ## Whole-buffer loads -/

/-- Loading the whole [1, 64, 32, 256] buffer through the rectangle at offset zero returns the buffer. -/
theorem ld_r0 (x0 : Vec Ideal S1x64x32x256 .f32) : View.ld x0 Gen.r0_0 = x0 :=
  View.ld_unit_zero (by funext a; fin_cases a <;> rfl) _ x0

/-- Loading a whole [256, 256] buffer through the rectangle at offset zero returns the buffer. -/
theorem ld_r1 (w : Vec Ideal S256x256 .bf16) : View.ld w Gen.r0_1 = w :=
  View.ld_unit_zero (by funext a; fin_cases a <;> rfl) _ w

/-- Loading the whole [1, 64, 32] buffer through the rectangle at offset zero returns the buffer. -/
theorem ld_r2 (x1 : Vec Ideal S1x64x32 .i32) : View.ld x1 Gen.r0_2 = x1 :=
  View.ld_unit_zero (by funext a; fin_cases a <;> rfl) _ x1

/-! ## The pair mask -/

/-- The mask word of row `q` of term `t`, copied along the key axis: the [1, 64, 32] words viewed as
    [64, 32], then [64, 32, 1], then repeated 32 times along the last axis. -/
theorem maskRow_apply (x1 : IVec S1x64x32 32) (h1 : S1x64x32.ShapeCasts S64x32) (h2 : S64x32.ShapeCasts S64x32x1)
    (h3 : S64x32x1.Broadcasts S64x32x32) (t : Fin 64) (q k : Fin 32) :
    broadcastTo S64x32x32 (shapeCast S64x32x1 (shapeCast S64x32 x1 h1) h2) h3 (ix3 t q k) = x1 (ix3 0 t q) := by
  refine (broadcastTo_apply _ h3 (ix3 t q k) (ix3 t q 0) ?_).trans ?_
  · intro a
    match a with
    | ⟨0, _⟩ => rfl
    | ⟨1, _⟩ => rfl
    | ⟨2, _⟩ => rfl
  refine (shapeCast_apply _ h2 (ix3 t q 0) (ix2 t q) ?_).trans ?_
  · rw [Shape.rowMajor_val_two, Shape.rowMajor_val_three]
    show t.val * 32 + q.val = (t.val * 32 + q.val) * 1 + 0
    omega
  refine shapeCast_apply _ h1 (ix2 t q) (ix3 0 t q) ?_
  rw [Shape.rowMajor_val_three, Shape.rowMajor_val_two]
  show (0 * 64 + t.val) * 32 + q.val = t.val * 32 + q.val
  omega

/-- The mask word of row `k` of term `t`, copied along the query axis: the [1, 64, 32] words viewed as
    [64, 32], then [64, 1, 32], then repeated 32 times along the middle axis. -/
theorem maskCol_apply (x1 : IVec S1x64x32 32) (h1 : S1x64x32.ShapeCasts S64x32) (h2 : S64x32.ShapeCasts S64x1x32)
    (h3 : S64x1x32.Broadcasts S64x32x32) (t : Fin 64) (q k : Fin 32) :
    broadcastTo S64x32x32 (shapeCast S64x1x32 (shapeCast S64x32 x1 h1) h2) h3 (ix3 t q k) = x1 (ix3 0 t k) := by
  refine (broadcastTo_apply _ h3 (ix3 t q k) (ix3 t 0 k) ?_).trans ?_
  · intro a
    match a with
    | ⟨0, _⟩ => rfl
    | ⟨1, _⟩ => rfl
    | ⟨2, _⟩ => rfl
  refine (shapeCast_apply _ h2 (ix3 t 0 k) (ix2 t k) ?_).trans ?_
  · rw [Shape.rowMajor_val_two, Shape.rowMajor_val_three]
    show t.val * 32 + k.val = (t.val * 1 + 0) * 32 + k.val
    omega
  refine shapeCast_apply _ h1 (ix2 t k) (ix3 0 t k) ?_
  rw [Shape.rowMajor_val_three, Shape.rowMajor_val_two]
  show (0 * 64 + t.val) * 32 + k.val = t.val * 32 + k.val
  omega

/-- The pair mask at (t, q, k): the product of the two rows' mask entries is positive. -/
theorem mask_apply (x1 : Vec Ideal S1x64x32 .i32) (t : Fin 64) (q k : Fin 32) :
    Gen.k0_pay7 (F := Ideal) (View.ld x1 Gen.r0_2) (ix3 t q k)
      = IntOp.cmpi .sgt (IntOp.muli (x1 (ix3 0 t q)) (x1 (ix3 0 t k))) 0#32 := by
  rw [ld_r2]
  exact congrArg₂ (fun a b : BitVec 32 => IntOp.cmpi .sgt (IntOp.muli a b) 0#32)
    (maskRow_apply x1 _ _ _ t q k) (maskCol_apply x1 _ _ _ t q k)

/-! ## The plain [2048, 256] × [256, 256] product -/

/-- The left operand is read at the result's row … -/
theorem mm_lhs0 (j : S2048x256.Idx) (q : dot_S2048x256_S256x256_S2048x256_1_0_0_1_n_n.contr.Idx) :
    (dot_S2048x256_S256x256_S2048x256_1_0_0_1_n_n.lhsIdx j q 0).val = (j 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl

/-- … and at the contraction position; -/
theorem mm_lhs1 (j : S2048x256.Idx) (q : dot_S2048x256_S256x256_S2048x256_1_0_0_1_n_n.contr.Idx) :
    (dot_S2048x256_S256x256_S2048x256_1_0_0_1_n_n.lhsIdx j q 1).val = (q ⟨0, by decide⟩).val :=
  dot_S2048x256_S256x256_S2048x256_1_0_0_1_n_n.lhsIdx_val_of_single rfl j q

/-- the right operand is read at the contraction position … -/
theorem mm_rhs0 (j : S2048x256.Idx) (q : dot_S2048x256_S256x256_S2048x256_1_0_0_1_n_n.contr.Idx) :
    (dot_S2048x256_S256x256_S2048x256_1_0_0_1_n_n.rhsIdx j q 0).val = (q ⟨0, by decide⟩).val :=
  dot_S2048x256_S256x256_S2048x256_1_0_0_1_n_n.rhsIdx_val_of_single rfl j q

/-- … and at the result's column. -/
theorem mm_rhs1 (j : S2048x256.Idx) (q : dot_S2048x256_S256x256_S2048x256_1_0_0_1_n_n.contr.Idx) :
    (dot_S2048x256_S256x256_S2048x256_1_0_0_1_n_n.rhsIdx j q 1).val = (j 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The product of a [2048, 256] matrix with a [256, 256] matrix into a zero accumulator, at (r, c), is the sum
    over the 256 contraction positions of left (r, i) times right (i, c). -/
theorem mm_apply {φ₁ φ₂ : FTy} (lhs : FVec Ideal S2048x256 φ₁) (rhs : FVec Ideal S256x256 φ₂) (r : Fin 2048) (c : Fin 256) :
    matmul dot_S2048x256_S256x256_S2048x256_1_0_0_1_n_n none lhs rhs (constant (F := Ideal) S2048x256 .f32 0x00000000#32) (ix2 r c)
      = ∑ i : Fin 256, lhs (ix2 r i) * rhs (ix2 i c) := by
  show FloatOps.matmul dot_S2048x256_S256x256_S2048x256_1_0_0_1_n_n none lhs rhs (constant (F := Ideal) S2048x256 .f32 0x00000000#32) (ix2 r c) = _
  rw [Ideal.matmul_constant_zero_apply,
    ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r c) ((contrEquiv1 dot_S2048x256_S256x256_S2048x256_1_0_0_1_n_n 256 rfl rfl).symm k) = ix2 r k :=
    funext fun a => Fin.ext (by
      match a with
      | ⟨0, _⟩ => exact mm_lhs0 _ _
      | ⟨1, _⟩ => exact (mm_lhs1 _ _).trans hk)
  have er : dot_S2048x256_S256x256_S2048x256_1_0_0_1_n_n.rhsIdx (ix2 r c) ((contrEquiv1 dot_S2048x256_S256x256_S2048x256_1_0_0_1_n_n 256 rfl rfl).symm k) = ix2 k c :=
    funext fun a => Fin.ext (by
      match a with
      | ⟨0, _⟩ => exact (mm_rhs0 _ _).trans hk
      | ⟨1, _⟩ => exact mm_rhs1 _ _)
  rw [el, er]

/-! ## The three projections -/

/-- Row `32 t + a` of the 2048 rows of a block: row `a` of term `t`. -/
def rowOf (t : Fin 64) (a : Fin 32) : Fin 2048 := ⟨t.val * 32 + a.val, by omega⟩

/-- The block as [2048, 256] rows: row `32 t + a`, column `i`, is the block's entry (0, t, a, i); the change of
    format on the way is the identity on extended reals. -/
theorem rows_apply (x0 : Vec Ideal S1x64x32x256 .f32) (t : Fin 64) (a : Fin 32) (i : Fin 256) :
    Gen.k0_pay2 (F := Ideal) x0 (ix2 (rowOf t a) i) = x0 (ix4 0 t a i) := by
  show shapeCast S2048x256 (truncf (F := Ideal) .bf16 (shapeCast S64x32x256 x0 Facts₀.shapeCasts_S1x64x32x256_S64x32x256) Facts₀.bitsLt_bf16_f32)
      Facts₀.shapeCasts_S64x32x256_S2048x256 (ix2 (rowOf t a) i) = _
  refine (shapeCast_apply _ _ (ix2 (rowOf t a) i) (ix3 t a i) ?_).trans ?_
  · rw [Shape.rowMajor_val_three, Shape.rowMajor_val_two]
    show (t.val * 32 + a.val) * 256 + i.val = (t.val * 32 + a.val) * 256 + i.val
    rfl
  show shapeCast S64x32x256 x0 Facts₀.shapeCasts_S1x64x32x256_S64x32x256 (ix3 t a i) = _
  refine shapeCast_apply _ _ (ix3 t a i) (ix4 0 t a i) ?_
  rw [Shape.rowMajor_val_four, Shape.rowMajor_val_three]
  show ((0 * 64 + t.val) * 32 + a.val) * 256 + i.val = (t.val * 32 + a.val) * 256 + i.val
  omega

/-- The block's rows through a [256,256] matrix, regrouped by heads: entry (t, a, h, d) is Σ_i x0[0,t,a,i] · w[i, 32h+d]. -/
theorem proj4_apply (x0 : Vec Ideal S1x64x32x256 .f32) (w : Vec Ideal S256x256 .bf16) (t : Fin 64) (a : Fin 32) (h : Fin 8) (d : Fin 32) :
    Gen.k0_pay4 (F := Ideal) (View.ld x0 Gen.r0_0) (View.ld w Gen.r0_1) (ix4 t a h d)
      = ∑ i : Fin 256, x0 (ix4 0 t a i) * w (ix2 i (Cert.Attn.hcol h d)) := by
  rw [ld_r0, ld_r1]
  show shapeCast S64x32x8x32 (matmul dot_S2048x256_S256x256_S2048x256_1_0_0_1_n_n none (Gen.k0_pay2 (F := Ideal) x0)
      (shapeCast S256x256 w Facts₀.shapeCasts_S256x256_S256x256) (constant (F := Ideal) S2048x256 .f32 0x00000000#32))
      Facts₀.shapeCasts_S2048x256_S64x32x8x32 (ix4 t a h d) = _
  refine (shapeCast_apply _ _ (ix4 t a h d) (ix2 (rowOf t a) (Cert.Attn.hcol h d)) ?_).trans ?_
  · rw [Shape.rowMajor_val_two, Shape.rowMajor_val_four]
    show (t.val * 32 + a.val) * 256 + (h.val * 32 + d.val) = ((t.val * 32 + a.val) * 8 + h.val) * 32 + d.val
    omega
  refine (mm_apply _ _ _ _).trans ?_
  refine Finset.sum_congr rfl fun i _ => ?_
  rw [rows_apply, shapeCast_self]

/-- The same for the second projection (its operations are the first's). -/
theorem proj5_apply (x0 : Vec Ideal S1x64x32x256 .f32) (w : Vec Ideal S256x256 .bf16) (t : Fin 64) (a : Fin 32) (h : Fin 8) (d : Fin 32) :
    Gen.k0_pay5 (F := Ideal) (View.ld x0 Gen.r0_0) (View.ld w Gen.r0_1) (ix4 t a h d)
      = ∑ i : Fin 256, x0 (ix4 0 t a i) * w (ix2 i (Cert.Attn.hcol h d)) :=
  proj4_apply x0 w t a h d

/-- The same for the third projection. -/
theorem proj6_apply (x0 : Vec Ideal S1x64x32x256 .f32) (w : Vec Ideal S256x256 .bf16) (t : Fin 64) (a : Fin 32) (h : Fin 8) (d : Fin 32) :
    Gen.k0_pay6 (F := Ideal) (View.ld x0 Gen.r0_0) (View.ld w Gen.r0_1) (ix4 t a h d)
      = ∑ i : Fin 256, x0 (ix4 0 t a i) * w (ix2 i (Cert.Attn.hcol h d)) :=
  proj4_apply x0 w t a h d

/-! ## The merge of the eight heads -/

/-- Eight [64, 32, 32] arrays, each viewed as [64, 32, 1, 32] and laid side by side along the head axis: entry
    (t, a, h, d) of the result is entry (t, a, d) of array `h`. -/
theorem cat_apply {α : Type} (o : Fin 8 → S64x32x32.Idx → α) (hs : S64x32x32.ShapeCasts S64x32x1x32)
    (hc : Shape.Concatenates [S64x32x1x32, S64x32x1x32, S64x32x1x32, S64x32x1x32, S64x32x1x32, S64x32x1x32, S64x32x1x32, S64x32x1x32] S64x32x8x32 2)
    (t : Fin 64) (a : Fin 32) (h : Fin 8) (d : Fin 32) :
    concatenate S64x32x8x32 2 [⟨S64x32x1x32, shapeCast S64x32x1x32 (o 0) hs⟩,
      ⟨S64x32x1x32, shapeCast S64x32x1x32 (o 1) hs⟩,
      ⟨S64x32x1x32, shapeCast S64x32x1x32 (o 2) hs⟩,
      ⟨S64x32x1x32, shapeCast S64x32x1x32 (o 3) hs⟩,
      ⟨S64x32x1x32, shapeCast S64x32x1x32 (o 4) hs⟩,
      ⟨S64x32x1x32, shapeCast S64x32x1x32 (o 5) hs⟩,
      ⟨S64x32x1x32, shapeCast S64x32x1x32 (o 6) hs⟩,
      ⟨S64x32x1x32, shapeCast S64x32x1x32 (o 7) hs⟩] hc (ix4 t a h d) = o h (ix3 t a d) := by
  show concatenate S64x32x8x32 2 (List.ofFn fun n : Fin 8 =>
      (⟨S64x32x1x32, shapeCast S64x32x1x32 (o n) hs⟩ : (s : Shape) × (s.Idx → α))) hc (ix4 t a h d) = _
  refine (concatenate_ofFn_apply 2 (fun n : Fin 8 => shapeCast S64x32x1x32 (o n) hs) hc rfl 1 rfl (ix4 t a h d) h ?_
    (ix4 t a 0 d) ?_ ?_).trans ?_
  · show h.val / 1 = h.val
    omega
  · show 0 = h.val % 1
    omega
  · intro b hb
    match b with
    | ⟨0, _⟩ => rfl
    | ⟨1, _⟩ => rfl
    | ⟨2, _⟩ => exact absurd rfl hb
    | ⟨3, _⟩ => rfl
  refine shapeCast_apply _ hs (ix4 t a 0 d) (ix3 t a d) ?_
  rw [Shape.rowMajor_val_three, Shape.rowMajor_val_four]
  show (t.val * 32 + a.val) * 32 + d.val = ((t.val * 32 + a.val) * 1 + 0) * 32 + d.val
  omega

/-- The eight heads side by side as [2048, 256] rows: row `32 t + a`, hidden column `j`, is head `j / 32` at
    (t, a, j % 32); the change of format on the way is the identity on extended reals. -/
theorem flat_apply (o : Fin 8 → FVec Ideal S64x32x32 .f32) (hs : S64x32x32.ShapeCasts S64x32x1x32)
    (hc : Shape.Concatenates [S64x32x1x32, S64x32x1x32, S64x32x1x32, S64x32x1x32, S64x32x1x32, S64x32x1x32, S64x32x1x32, S64x32x1x32] S64x32x8x32 2)
    (hf : S64x32x8x32.ShapeCasts S2048x256) (hb : FTy.bits .bf16 < FTy.bits .f32)
    (t : Fin 64) (a : Fin 32) (j : Fin 256) :
    truncf (F := Ideal) .bf16 (shapeCast S2048x256 (concatenate S64x32x8x32 2 [⟨S64x32x1x32, shapeCast S64x32x1x32 (o 0) hs⟩,
      ⟨S64x32x1x32, shapeCast S64x32x1x32 (o 1) hs⟩,
      ⟨S64x32x1x32, shapeCast S64x32x1x32 (o 2) hs⟩,
      ⟨S64x32x1x32, shapeCast S64x32x1x32 (o 3) hs⟩,
      ⟨S64x32x1x32, shapeCast S64x32x1x32 (o 4) hs⟩,
      ⟨S64x32x1x32, shapeCast S64x32x1x32 (o 5) hs⟩,
      ⟨S64x32x1x32, shapeCast S64x32x1x32 (o 6) hs⟩,
      ⟨S64x32x1x32, shapeCast S64x32x1x32 (o 7) hs⟩] hc) hf) hb (ix2 (rowOf t a) j)
      = o (Cert.Attn.headOf j) (ix3 t a (Cert.Attn.laneOf j)) := by
  show shapeCast S2048x256 (concatenate S64x32x8x32 2 [⟨S64x32x1x32, shapeCast S64x32x1x32 (o 0) hs⟩,
      ⟨S64x32x1x32, shapeCast S64x32x1x32 (o 1) hs⟩,
      ⟨S64x32x1x32, shapeCast S64x32x1x32 (o 2) hs⟩,
      ⟨S64x32x1x32, shapeCast S64x32x1x32 (o 3) hs⟩,
      ⟨S64x32x1x32, shapeCast S64x32x1x32 (o 4) hs⟩,
      ⟨S64x32x1x32, shapeCast S64x32x1x32 (o 5) hs⟩,
      ⟨S64x32x1x32, shapeCast S64x32x1x32 (o 6) hs⟩,
      ⟨S64x32x1x32, shapeCast S64x32x1x32 (o 7) hs⟩] hc) hf (ix2 (rowOf t a) j) = _
  refine (shapeCast_apply _ hf (ix2 (rowOf t a) j) (ix4 t a (Cert.Attn.headOf j) (Cert.Attn.laneOf j)) ?_).trans ?_
  · rw [Shape.rowMajor_val_four, Shape.rowMajor_val_two]
    show ((t.val * 32 + a.val) * 8 + j.val / 32) * 32 + j.val % 32 = (t.val * 32 + a.val) * 256 + j.val
    omega
  exact cat_apply o hs hc t a (Cert.Attn.headOf j) (Cert.Attn.laneOf j)

/-- The output matrix as the body reads it is the loaded matrix. -/
theorem pay3_eq (w5 : Vec Ideal S256x256 .bf16) : Gen.k0_pay3 (F := Ideal) w5 = w5 :=
  shapeCast_self w5 _

/-- The eight heads' outputs side by side, through the output matrix: entry (0, t, a, c) is Σ_j o_{j/32}[t, a, j%32] · w5[j, c]. -/
theorem mergeHeads_apply (w5 : Vec Ideal S256x256 .bf16) (o : Fin 8 → FVec Ideal S64x32x32 .f32) (t : Fin 64) (a : Fin 32) (c : Fin 256) :
    Form.mergeHeads (Gen.k0_pay3 (F := Ideal) (View.ld w5 Gen.r0_1)) (o 0) (o 1) (o 2) (o 3) (o 4) (o 5) (o 6) (o 7) (ix4 0 t a c)
      = ∑ j : Fin 256, o (Cert.Attn.headOf j) (ix3 t a (Cert.Attn.laneOf j)) * w5 (ix2 j c) := by
  rw [ld_r1, pay3_eq]
  unfold Form.mergeHeads
  refine (shapeCast_apply _ _ (ix4 0 t a c) (ix3 t a c) ?_).trans ?_
  · rw [Shape.rowMajor_val_three, Shape.rowMajor_val_four]
    show (t.val * 32 + a.val) * 256 + c.val = ((0 * 64 + t.val) * 32 + a.val) * 256 + c.val
    omega
  refine (shapeCast_apply _ _ (ix3 t a c) (ix2 (rowOf t a) c) ?_).trans ?_
  · rw [Shape.rowMajor_val_two, Shape.rowMajor_val_three]
    show (t.val * 32 + a.val) * 256 + c.val = (t.val * 32 + a.val) * 256 + c.val
    rfl
  refine (mm_apply (φ₁ := .bf16) (φ₂ := .bf16) _ w5 (rowOf t a) c).trans ?_
  refine Finset.sum_congr rfl fun j _ => ?_
  exact congrArg (· * w5 (ix2 j c)) (flat_apply o _ _ _ _ t a j)

end Cert.KernelIdeal.BlockStages

end
-- ==== Proof.BlockValue.lean ====
/-
  The block the kernel body stores, read at an entry: the attention layer of one term.

  The body's stages (the three projections, the pair mask, each head's attention output, the merge through the
  output layer) are put together: at term t of the block, row a, column o the stored value is the attention layer
  of the term's 32 rows.
-/
import proofs.«155731_j20847771255440_2_alg».proof.Proof.KernelForm
import proofs.«155731_j20847771255440_2_alg».proof.Proof.AttnSpec
import proofs.«155731_j20847771255440_2_alg».proof.Proof.MaskDomain
import Idealize.ShloMosaic.Lib.ValueIdx
import proofs.«155731_j20847771255440_2_alg».proof.Proof.HeadValue
import proofs.«155731_j20847771255440_2_alg».proof.Proof.BlockStages

noncomputable section

namespace Cert.KernelIdeal.BlockValue

open Cert.KernelIdeal Idealize.ShloMosaic Idealize.ShloMosaic.ValueIdx

/-- Every head offset along the head axis of a projected block is a legal slice. -/
theorem sliceOf : ∀ h : Fin 8, S64x32x8x32.Slices ![0, 0, h.val, 0] S64x32x1x32
  | ⟨0, _⟩ => Facts₀.slices_S64x32x8x32_o0_0_0_0_S64x32x1x32
  | ⟨1, _⟩ => Facts₀.slices_S64x32x8x32_o0_0_1_0_S64x32x1x32
  | ⟨2, _⟩ => Facts₀.slices_S64x32x8x32_o0_0_2_0_S64x32x1x32
  | ⟨3, _⟩ => Facts₀.slices_S64x32x8x32_o0_0_3_0_S64x32x1x32
  | ⟨4, _⟩ => Facts₀.slices_S64x32x8x32_o0_0_4_0_S64x32x1x32
  | ⟨5, _⟩ => Facts₀.slices_S64x32x8x32_o0_0_5_0_S64x32x1x32
  | ⟨6, _⟩ => Facts₀.slices_S64x32x8x32_o0_0_6_0_S64x32x1x32
  | ⟨7, _⟩ => Facts₀.slices_S64x32x8x32_o0_0_7_0_S64x32x1x32

/-- The block the body stores, at term `t` of the block, row `a`, column `o`: the attention layer of that term's 32
    rows, with the four weight blocks read transposed (the blocks hold the transposed weights) and the pair mask
    "both entries positive" — for a mask block whose entries are 0 or 1. -/
theorem stored_apply (x0 : Vec Ideal S1x64x32x256 .f32) (x1 : Vec Ideal S1x64x32 .i32) (x2 x3 x4 x5 : Vec Ideal S256x256 .bf16)
    (hbin : ∀ (t : Fin 64) (a : Fin 32), x1 (ix3 0 t a) = 0#32 ∨ x1 (ix3 0 t a) = 1#32) (t : Fin 64) (a : Fin 32) (o : Fin 256) :
    Form.stored x0 x1 x2 x3 x4 x5 (ix4 0 t a o)
      = Cert.Attn.attnRow (Cert.Attn.pairOn fun a => x1 (ix3 0 t a)) (fun a j => x0 (ix4 0 t a j))
          (fun o j => x2 (ix2 j o)) (fun o j => x3 (ix2 j o)) (fun o j => x4 (ix2 j o)) (fun o j => x5 (ix2 j o)) a o := by
  -- the pair mask of the block, as the specification's
  have hm : ∀ (t : Fin 64) (q k : Fin 32), Gen.k0_pay7 (F := Ideal) (View.ld x1 Gen.r0_2) (ix3 t q k)
      = if (fun (t : Fin 64) => Cert.Attn.pairOn fun a => x1 (ix3 0 t a)) t q k then 1#1 else 0#1 := fun t q k =>
    (BlockStages.mask_apply x1 t q k).trans (Cert.MaskDomain.pair_bit _ _ (hbin t q) (hbin t k))
  -- the eight heads' outputs as a family
  let oh : Fin 8 → FVec Ideal S64x32x32 .f32 := fun h =>
    Form.headAttn ![0, 0, h.val, 0] (sliceOf h) (Gen.k0_pay4 (View.ld x0 Gen.r0_0) (View.ld x2 Gen.r0_1))
      (Gen.k0_pay5 (View.ld x0 Gen.r0_0) (View.ld x3 Gen.r0_1)) (Gen.k0_pay6 (View.ld x0 Gen.r0_0) (View.ld x4 Gen.r0_1))
      (Gen.k0_pay7 (View.ld x1 Gen.r0_2)) (Named.named (F := Ideal) Cert.KernelIdeal.κ "inv_sqrt_d" (φ := .f32) 0x3E3504F3#32)
  show Form.mergeHeads (Gen.k0_pay3 (F := Ideal) (View.ld x5 Gen.r0_1)) (oh 0) (oh 1) (oh 2) (oh 3) (oh 4) (oh 5) (oh 6) (oh 7) (ix4 0 t a o) = _
  refine (BlockStages.mergeHeads_apply x5 oh t a o).trans ?_
  unfold Cert.Attn.attnRow
  refine Finset.sum_congr rfl fun j _ => congrArg (· * x5 (ix2 j o)) ?_
  refine (HeadValue.headAttn_apply (Cert.Attn.headOf j) (sliceOf _) _ _ _ _ _ hm t a (Cert.Attn.laneOf j)).trans ?_
  have hq : (fun (a : Fin 32) (c : Fin 256) => Gen.k0_pay4 (F := Ideal) (View.ld x0 Gen.r0_0) (View.ld x2 Gen.r0_1) (ix4 t a (Cert.Attn.headOf c) (Cert.Attn.laneOf c)))
      = Cert.Attn.proj (fun a j => x0 (ix4 0 t a j)) (fun o j => x2 (ix2 j o)) := by
    funext a c
    rw [BlockStages.proj4_apply, Cert.Attn.hcol_headOf_laneOf]; rfl
  have hk : (fun (a : Fin 32) (c : Fin 256) => Gen.k0_pay5 (F := Ideal) (View.ld x0 Gen.r0_0) (View.ld x3 Gen.r0_1) (ix4 t a (Cert.Attn.headOf c) (Cert.Attn.laneOf c)))
      = Cert.Attn.proj (fun a j => x0 (ix4 0 t a j)) (fun o j => x3 (ix2 j o)) := by
    funext a c
    rw [BlockStages.proj5_apply, Cert.Attn.hcol_headOf_laneOf]; rfl
  have hv : (fun (a : Fin 32) (c : Fin 256) => Gen.k0_pay6 (F := Ideal) (View.ld x0 Gen.r0_0) (View.ld x4 Gen.r0_1) (ix4 t a (Cert.Attn.headOf c) (Cert.Attn.laneOf c)))
      = Cert.Attn.proj (fun a j => x0 (ix4 0 t a j)) (fun o j => x4 (ix2 j o)) := by
    funext a c
    rw [BlockStages.proj6_apply, Cert.Attn.hcol_headOf_laneOf]; rfl
  rw [hq, hk, hv]

end Cert.KernelIdeal.BlockValue

end
-- ==== Proof.ArrayValue.lean ====
/-
  From the blocks to the array: the kernel's result array is the attention layer of every term.

  The grid has 8 × 16 points; point (b, s) stages term rows 64 s … 64 s + 63 of batch b (a [1, 64, 32, 256] block
  of the rows, the matching [1, 64, 32] block of the mask) and the four whole weight matrices, transposed on the way
  in, and writes back the same block of the result.  Each written block is the block of one whole-array function
  (the attention layer of each term), and the blocks fill the array.
-/
import proofs.«155731_j20847771255440_2_alg».proof.Proof.Gen.KernelIdeal.Value
import proofs.«155731_j20847771255440_2_alg».proof.Proof.KernelForm
import proofs.«155731_j20847771255440_2_alg».proof.Proof.AttnSpec
import Idealize.ShloMosaic.Lib.Pipeline.Value
import Idealize.ShloMosaic.Lib.StableHlo.Run
import Idealize.ShloMosaic.Lib.ValueIdx
import proofs.«155731_j20847771255440_2_alg».proof.Proof.BlockValue

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl

/-- The result array as one function of the launched argument arrays. -/
abbrev Gm (c : Dev nD) : S8x1024x32x256.Idx → EReal :=
  Cert.Attn.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The index maps over the grid: the rows' and the mask's blocks move with the result's block on the batch and term
    axes, every other block index is zero, and the result's block indices stay in range. -/
theorem idx_facts : ∀ t : Fin cfg0.N,
    win0_0.index t (0 : Fin 4) = win0_6.index t (0 : Fin 4) ∧ win0_0.index t (1 : Fin 4) = win0_6.index t (1 : Fin 4)
    ∧ win0_0.index t (2 : Fin 4) = 0 ∧ win0_0.index t (3 : Fin 4) = 0
    ∧ win0_1.index t (0 : Fin 3) = win0_6.index t (0 : Fin 4) ∧ win0_1.index t (1 : Fin 3) = win0_6.index t (1 : Fin 4)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (2 : Fin 4) = 0 ∧ win0_6.index t (3 : Fin 4) = 0
    ∧ win0_6.index t (0 : Fin 4) ≤ 7 ∧ win0_6.index t (1 : Fin 4) ≤ 15 :=
  (by decide +kernel : ∀ t : Fin grid0.N, _)

/-- Every block of the result array is some point's. -/
theorem idx_onto : ∀ (q0 : Fin 8) (q1 : Fin 16), ∃ t : Fin cfg0.N, win0_6.index t = ![q0.val, q1.val, 0, 0] :=
  (by decide +kernel : ∀ (q0 : Fin 8) (q1 : Fin 16), ∃ t : Fin grid0.N, win0_6.index t = ![q0.val, q1.val, 0, 0])

/-- Weight operand 2 as the region finds it, at (i, o): the launched weight argument at (o, i). -/
theorem V_w2 (c : Dev nD) (i o : Fin 256) :
    V m c main_v1 (ix2 i o) = m ((c : Thread nD τ).loc main_arg2) (ix2 o i) := by
  have e : V m c main_v1 = truncf (F := Ideal) .bf16 (transpose S256x256 [1, 0] (m ((c : Thread nD τ).loc main_arg2)) transposes_S256x256_S256x256_1_0) bitsLt_bf16_f32 := by
    dsimp only [Gen.V, Gen.hostOps0]; after_results
  rw [e]
  show transpose S256x256 [1, 0] (m ((c : Thread nD τ).loc main_arg2)) transposes_S256x256_S256x256_1_0 (ix2 i o) = _
  exact transpose_apply _ _ _ _ _ (fun b => by match b with | ⟨0, _⟩ => rfl | ⟨1, _⟩ => rfl)

/-- Weight operand 3 as the region finds it, at (i, o): the launched weight argument at (o, i). -/
theorem V_w3 (c : Dev nD) (i o : Fin 256) :
    V m c main_v3 (ix2 i o) = m ((c : Thread nD τ).loc main_arg3) (ix2 o i) := by
  have e : V m c main_v3 = truncf (F := Ideal) .bf16 (transpose S256x256 [1, 0] (m ((c : Thread nD τ).loc main_arg3)) transposes_S256x256_S256x256_1_0) bitsLt_bf16_f32 := by
    dsimp only [Gen.V, Gen.hostOps0]; after_results
  rw [e]
  show transpose S256x256 [1, 0] (m ((c : Thread nD τ).loc main_arg3)) transposes_S256x256_S256x256_1_0 (ix2 i o) = _
  exact transpose_apply _ _ _ _ _ (fun b => by match b with | ⟨0, _⟩ => rfl | ⟨1, _⟩ => rfl)

/-- Weight operand 4 as the region finds it, at (i, o): the launched weight argument at (o, i). -/
theorem V_w4 (c : Dev nD) (i o : Fin 256) :
    V m c main_v5 (ix2 i o) = m ((c : Thread nD τ).loc main_arg4) (ix2 o i) := by
  have e : V m c main_v5 = truncf (F := Ideal) .bf16 (transpose S256x256 [1, 0] (m ((c : Thread nD τ).loc main_arg4)) transposes_S256x256_S256x256_1_0) bitsLt_bf16_f32 := by
    dsimp only [Gen.V, Gen.hostOps0]; after_results
  rw [e]
  show transpose S256x256 [1, 0] (m ((c : Thread nD τ).loc main_arg4)) transposes_S256x256_S256x256_1_0 (ix2 i o) = _
  exact transpose_apply _ _ _ _ _ (fun b => by match b with | ⟨0, _⟩ => rfl | ⟨1, _⟩ => rfl)

/-- Weight operand 5 as the region finds it, at (i, o): the launched weight argument at (o, i). -/
theorem V_w5 (c : Dev nD) (i o : Fin 256) :
    V m c main_v7 (ix2 i o) = m ((c : Thread nD τ).loc main_arg5) (ix2 o i) := by
  have e : V m c main_v7 = truncf (F := Ideal) .bf16 (transpose S256x256 [1, 0] (m ((c : Thread nD τ).loc main_arg5)) transposes_S256x256_S256x256_1_0) bitsLt_bf16_f32 := by
    dsimp only [Gen.V, Gen.hostOps0]; after_results
  rw [e]
  show transpose S256x256 [1, 0] (m ((c : Thread nD τ).loc main_arg5)) transposes_S256x256_S256x256_1_0 (ix2 i o) = _
  exact transpose_apply _ _ _ _ _ (fun b => by match b with | ⟨0, _⟩ => rfl | ⟨1, _⟩ => rfl)

/-- The specification's attention layer depends only on its arguments' values. -/
theorem attnRow_congr {on on' : Fin 32 → Fin 32 → Bool} {X X' : Fin 32 → Fin 256 → EReal}
    {Wq Wq' Wk Wk' Wv Wv' Wo Wo' : Fin 256 → Fin 256 → EReal} {a a' : Fin 32} {o o' : Fin 256}
    (h1 : on = on') (h2 : X = X') (h3 : Wq = Wq') (h4 : Wk = Wk') (h5 : Wv = Wv') (h6 : Wo = Wo') (h7 : a = a') (h8 : o = o') :
    Cert.Attn.attnRow on X Wq Wk Wv Wo a o = Cert.Attn.attnRow on' X' Wq' Wk' Wv' Wo' a' o' := by
  subst h1 h2 h3 h4 h5 h6 h7 h8; rfl

/-- WHAT POINT `t` WRITES BACK is block `t` of the attention layer of the launched arguments, when the mask's
    entries are 0 or 1. -/
theorem flushed_eq (c : Dev nD)
    (hbin : ∀ i : S8x1024x32.Idx, m ((c : Thread nD τ).loc main_arg1) i = 0#32 ∨ m ((c : Thread nD τ).loc main_arg1) i = 1#32)
    (t : Fin cfg0.N) :
    (dats m 0 c).flushed 6 t = ((cfg0.win 6).blk t).view.read (Elt Ideal) (Gm m c) := by
  rw [Value.flushed6, Form.out0_6_eq, View.canon_unit_zero hz4]
  obtain ⟨e00, e01, e02, e03, e10, e11, e12, e20, e21, e30, e31, e40, e41, e50, e51, e62, e63, b0, b1⟩ := idx_facts t
  have key : ∀ (t' : Fin 64) (a : Fin 32) (o : Fin 256),
      Form.stored (iblk m c 0 t) (iblk m c 1 t) (iblk m c 2 t) (iblk m c 3 t) (iblk m c 4 t) (iblk m c 5 t) (ix4 0 t' a o)
        = Gm m c (((cfg0.win 6).blk t).view.emb (ix4 0 t' a o)) := by
    intro t' a o
    refine (BlockValue.stored_apply (iblk m c 0 t) (iblk m c 1 t) (iblk m c 2 t) (iblk m c 3 t) (iblk m c 4 t) (iblk m c 5 t) ?_ t' a o).trans ?_
    · intro t'' a''
      show V m c main_arg1 (((cfg0.win 1).blk t).view.emb (ix3 0 t'' a'')) = 0#32 ∨ V m c main_arg1 (((cfg0.win 1).blk t).view.emb (ix3 0 t'' a'')) = 1#32
      rw [V_main_arg1]
      exact hbin _
    · have hI0 : ((((cfg0.win 6).blk t).view.emb (ix4 0 t' a o)) 0).val = win0_6.index t (0 : Fin 4) := by
        show win0_6.index t (0 : Fin 4) * 1 + 1 * 0 = _; omega
      have hI1 : ((((cfg0.win 6).blk t).view.emb (ix4 0 t' a o)) 1).val = win0_6.index t (1 : Fin 4) * 64 + t'.val := by
        show win0_6.index t (1 : Fin 4) * 64 + 1 * t'.val = _; omega
      have hI2 : ((((cfg0.win 6).blk t).view.emb (ix4 0 t' a o)) 2).val = a.val := by
        show win0_6.index t (2 : Fin 4) * 32 + 1 * a.val = _; omega
      have hI3 : ((((cfg0.win 6).blk t).view.emb (ix4 0 t' a o)) 3).val = o.val := by
        show win0_6.index t (3 : Fin 4) * 256 + 1 * o.val = _; omega
      show _ = Cert.Attn.G _ _ _ _ _ _ _
      unfold Cert.Attn.G
      refine attnRow_congr ?_ ?_ ?_ ?_ ?_ ?_ (Fin.ext hI2.symm) (Fin.ext hI3.symm)
      · refine congrArg Cert.Attn.pairOn (funext fun a' => ?_)
        show V m c main_arg1 (((cfg0.win 1).blk t).view.emb (ix3 0 t' a')) = m ((c : Thread nD τ).loc main_arg1) (ix3 ((((cfg0.win 6).blk t).view.emb (ix4 0 t' a o)) 0) ((((cfg0.win 6).blk t).view.emb (ix4 0 t' a o)) 1) a')
        rw [V_main_arg1]
        refine congrArg _ (funext fun ax => Fin.ext ?_)
        match ax with
        | ⟨0, _⟩ => show win0_1.index t (0 : Fin 3) * 1 + 1 * 0 = ((((cfg0.win 6).blk t).view.emb (ix4 0 t' a o)) 0).val; rw [hI0]; omega
        | ⟨1, _⟩ => show win0_1.index t (1 : Fin 3) * 64 + 1 * t'.val = ((((cfg0.win 6).blk t).view.emb (ix4 0 t' a o)) 1).val; rw [hI1]; omega
        | ⟨2, _⟩ => show win0_1.index t (2 : Fin 3) * 32 + 1 * a'.val = a'.val; omega
      · refine funext fun a' => funext fun j => ?_
        show V m c main_arg0 (((cfg0.win 0).blk t).view.emb (ix4 0 t' a' j)) = m ((c : Thread nD τ).loc main_arg0) (ix4 ((((cfg0.win 6).blk t).view.emb (ix4 0 t' a o)) 0) ((((cfg0.win 6).blk t).view.emb (ix4 0 t' a o)) 1) a' j)
        rw [V_main_arg0]
        refine congrArg _ (funext fun ax => Fin.ext ?_)
        match ax with
        | ⟨0, _⟩ => show win0_0.index t (0 : Fin 4) * 1 + 1 * 0 = ((((cfg0.win 6).blk t).view.emb (ix4 0 t' a o)) 0).val; rw [hI0]; omega
        | ⟨1, _⟩ => show win0_0.index t (1 : Fin 4) * 64 + 1 * t'.val = ((((cfg0.win 6).blk t).view.emb (ix4 0 t' a o)) 1).val; rw [hI1]; omega
        | ⟨2, _⟩ => show win0_0.index t (2 : Fin 4) * 32 + 1 * a'.val = a'.val; omega
        | ⟨3, _⟩ => show win0_0.index t (3 : Fin 4) * 256 + 1 * j.val = j.val; omega
      · refine funext fun o' => funext fun j => ?_
        show V m c (Pipeline.arrRef spec0 2) (((cfg0.win 2).blk t).view.emb (ix2 j o')) = m ((c : Thread nD τ).loc main_arg2) (ix2 o' j)
        have hemb : ((cfg0.win 2).blk t).view.emb (ix2 j o') = ix2 j o' := by
          funext ax; apply Fin.ext
          match ax with
          | ⟨0, _⟩ => show win0_2.index t (0 : Fin 2) * 256 + 1 * j.val = j.val; omega
          | ⟨1, _⟩ => show win0_2.index t (1 : Fin 2) * 256 + 1 * o'.val = o'.val; omega
        rw [hemb]
        exact V_w2 m c j o'
      · refine funext fun o' => funext fun j => ?_
        show V m c (Pipeline.arrRef spec0 3) (((cfg0.win 3).blk t).view.emb (ix2 j o')) = m ((c : Thread nD τ).loc main_arg3) (ix2 o' j)
        have hemb : ((cfg0.win 3).blk t).view.emb (ix2 j o') = ix2 j o' := by
          funext ax; apply Fin.ext
          match ax with
          | ⟨0, _⟩ => show win0_3.index t (0 : Fin 2) * 256 + 1 * j.val = j.val; omega
          | ⟨1, _⟩ => show win0_3.index t (1 : Fin 2) * 256 + 1 * o'.val = o'.val; omega
        rw [hemb]
        exact V_w3 m c j o'
      · refine funext fun o' => funext fun j => ?_
        show V m c (Pipeline.arrRef spec0 4) (((cfg0.win 4).blk t).view.emb (ix2 j o')) = m ((c : Thread nD τ).loc main_arg4) (ix2 o' j)
        have hemb : ((cfg0.win 4).blk t).view.emb (ix2 j o') = ix2 j o' := by
          funext ax; apply Fin.ext
          match ax with
          | ⟨0, _⟩ => show win0_4.index t (0 : Fin 2) * 256 + 1 * j.val = j.val; omega
          | ⟨1, _⟩ => show win0_4.index t (1 : Fin 2) * 256 + 1 * o'.val = o'.val; omega
        rw [hemb]
        exact V_w4 m c j o'
      · refine funext fun o' => funext fun j => ?_
        show V m c (Pipeline.arrRef spec0 5) (((cfg0.win 5).blk t).view.emb (ix2 j o')) = m ((c : Thread nD τ).loc main_arg5) (ix2 o' j)
        have hemb : ((cfg0.win 5).blk t).view.emb (ix2 j o') = ix2 j o' := by
          funext ax; apply Fin.ext
          match ax with
          | ⟨0, _⟩ => show win0_5.index t (0 : Fin 2) * 256 + 1 * j.val = j.val; omega
          | ⟨1, _⟩ => show win0_5.index t (1 : Fin 2) * 256 + 1 * o'.val = o'.val; omega
        rw [hemb]
        exact V_w5 m c j o'
  funext y
  show Form.stored (iblk m c 0 t) (iblk m c 1 t) (iblk m c 2 t) (iblk m c 3 t) (iblk m c 4 t) (iblk m c 5 t) y = Gm m c (((cfg0.win 6).blk t).view.emb y)
  have hy : y = ix4 (0 : Fin 1) (⟨(y 1).val, (y 1).isLt⟩ : Fin 64) (⟨(y 2).val, (y 2).isLt⟩ : Fin 32) (⟨(y 3).val, (y 3).isLt⟩ : Fin 256) := by
    funext d; apply Fin.ext
    match d with
    | ⟨0, _⟩ => show (y 0).val = 0; have h1 : (y 0).val < 1 := (y 0).isLt; omega
    | ⟨1, _⟩ => rfl
    | ⟨2, _⟩ => rfl
    | ⟨3, _⟩ => rfl
  rw [hy]
  exact key _ _ _

/-- An index of the array is in point `t`'s block iff each coordinate is in the block's range on its axis. -/
theorem mem_blk (t : Fin cfg0.N) (i : S8x1024x32x256.Idx) :
    i ∈ ((cfg0.win 6).blk t).view.set ↔ ∀ a : Fin 4, win0_6.index t a * S1x64x32x256.size a ≤ (i a).val ∧ (i a).val < win0_6.index t a * S1x64x32x256.size a + S1x64x32x256.size a := by
  show i ∈ ((View.whole main_v8).slice (win0_6.rect t)).set ↔ _
  rw [View.set_slice_whole, Rect.mem_set_unit]
  exact Iff.rfl

/-- The blocks fill the array: entry (b, r, a, o) lies in the block of the point with batch index b and term-tile
    index r / 64. -/
theorem cover (i : S8x1024x32x256.Idx) : ∃ t : Fin cfg0.N, (cfg0.win 6).flush t = true ∧ i ∈ ((cfg0.win 6).blk t).view.set := by
  have hi0 : (i 0).val < 8 := (i 0).isLt
  have hi1 : (i 1).val < 1024 := (i 1).isLt
  have hi2 : (i 2).val < 32 := (i 2).isLt
  have hi3 : (i 3).val < 256 := (i 3).isLt
  obtain ⟨t, ht⟩ := idx_onto ⟨(i 0).val, hi0⟩ ⟨(i 1).val / 64, by omega⟩
  have q0 : win0_6.index t (0 : Fin 4) = (i 0).val := congrFun ht 0
  have q1 : win0_6.index t (1 : Fin 4) = (i 1).val / 64 := congrFun ht 1
  have q2 : win0_6.index t (2 : Fin 4) = 0 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 64 ≤ (i 1).val ∧ (i 1).val < win0_6.index t (1 : Fin 4) * 64 + 64; omega
  | ⟨2, _⟩ => show win0_6.index t (2 : Fin 4) * 32 ≤ (i 2).val ∧ (i 2).val < win0_6.index t (2 : Fin 4) * 32 + 32; omega
  | ⟨3, _⟩ => show win0_6.index t (3 : Fin 4) * 256 ≤ (i 3).val ∧ (i 3).val < win0_6.index t (3 : Fin 4) * 256 + 256; omega

/-- THE ARRAY after the run is the attention layer of the launched arguments, when the mask's entries are 0 or 1. -/
theorem final (c : Dev nD)
    (hbin : ∀ i : S8x1024x32.Idx, m ((c : Thread nD τ).loc main_arg1) i = 0#32 ∨ m ((c : Thread nD τ).loc main_arg1) i = 1#32) :
    (dats m 0 c).arrAt 6 cfg0.N = Gm m c :=
  (dats m 0 c).arrAt_eq_of_cover 6 (Gm m c) (fun t _ => flushed_eq m c hbin t) cover

/-- The kernel's run with its result array named: the attention layer of the launched arguments, the arguments
    unchanged — for a launch whose mask entries are all 0 or 1. -/
theorem run (hbin : ∀ (c : Dev nD) (i : S8x1024x32.Idx), m ((c : Thread nD τ).loc main_arg1) i = 0#32 ∨ m ((c : Thread nD τ).loc main_arg1) i = 1#32) :
    θ_run defs (onTc (τ := τ) (main (F := Ideal))) ⟨m, fun _ => 0, ρ⟩ fun r => ∀ c : Dev nD,
      r.2.mem ((c : Thread nD τ).loc main_v8) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (hbin c)), (h c).2⟩) (Value.run_blocks m ρ)

end Cert.KernelIdeal.ArrayValue

end
-- ==== Proof.lean ====
/-
  A fused multi-head attention kernel against its plain reference, on the extended reals.

  The kernel tiles the [8, 1024, 32, 256] rows into 128 blocks of 64 terms; for a block it projects the rows by
  three [256, 256] matrices (passed transposed), splits the 256 columns into 8 heads of 32 lanes, and per head forms
  the logits Σ_d Q·K, scales them by a constant, replaces the logits of masked-out pairs by the most negative finite
  single-precision number, takes a softmax over the keys, zeroes the masked-out probabilities, multiplies by the
  values, and sends the heads, side by side, through the output matrix.  The reference does the same on whole arrays
  with einsums.  Two things make the two programs one function on the extended reals:

  * the scale.  The reference divides the logits by the single-precision number nearest √32, the real
    11863283 / 2^21; the kernel multiplies by a constant that the certificate's table names as the reciprocal of
    that number, 2097152 / 11863283.  On every extended real, dividing by a nonzero real is multiplying by its
    reciprocal.
  * the mask.  The kernel attends the pair (q, k) when the product of the two integer mask entries is positive, the
    reference when each is positive.  The precondition says every mask entry is 0 or 1, and on {0, 1} the two tests agree.

  Everything else is the same sums and the same pointwise operations in another layout: a change of float format is
  the identity on the extended reals, and sums may be regrouped freely.  Both results are therefore the function
  `Cert.Attn.G` of the argument arrays (AttnSpec): the reference by reading its operations one at a time
  (RefValue), the kernel by reading the block its body stores (HeadValue, BlockStages, BlockValue) and then the
  array its blocks fill (ArrayValue).  The frames are the generated ones; the idealization's eight rewrites are
  eight occurrences of the one named constant.
-/
import proofs.«155731_j20847771255440_2_alg».proof.Defs
import proofs.«155731_j20847771255440_2_alg».proof.Proof.Gen.Kernel
import proofs.«155731_j20847771255440_2_alg».proof.Proof.Gen.Kernel.Skeleton
import proofs.«155731_j20847771255440_2_alg».proof.Proof.Gen.Kernel.Launch
import proofs.«155731_j20847771255440_2_alg».proof.Proof.Gen.Kernel.Points
import proofs.«155731_j20847771255440_2_alg».proof.Proof.Gen.Kernel.Frame
import proofs.«155731_j20847771255440_2_alg».proof.Proof.Gen.KernelIdeal
import proofs.«155731_j20847771255440_2_alg».proof.Proof.Gen.KernelIdeal.Skeleton
import proofs.«155731_j20847771255440_2_alg».proof.Proof.Gen.KernelIdeal.Launch
import proofs.«155731_j20847771255440_2_alg».proof.Proof.Gen.KernelIdeal.Points
import proofs.«155731_j20847771255440_2_alg».proof.Proof.Gen.KernelIdeal.Frame
import proofs.«155731_j20847771255440_2_alg».proof.Proof.Gen.ReferenceIdeal
import proofs.«155731_j20847771255440_2_alg».proof.Proof.Gen.Pre_finite_inputs
import proofs.«155731_j20847771255440_2_alg».proof.Proof.Gen.KernelIdeal.Value
import proofs.«155731_j20847771255440_2_alg».proof.Proof.Gen.ReferenceIdeal.Run
import proofs.«155731_j20847771255440_2_alg».proof.Proof.Gen.ReferenceIdeal.Read
import proofs.«155731_j20847771255440_2_alg».proof.Proof.MaskDomain
import proofs.«155731_j20847771255440_2_alg».proof.Proof.RefValue
import proofs.«155731_j20847771255440_2_alg».proof.Proof.ArrayValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The table gives the scale constant the value 2097152 / 11863283, and each of its eight occurrences (one per
    head) is printed as that value on the extended reals. -/
theorem scale_named : IdealRules.named_const.Statement Cert.KernelIdeal.κ "inv_sqrt_d" .f32 0x3E3504F3#32 ((2097152 / 11863283 : ℝ) : EReal) :=
  IdealRules.named_const.statement Cert.KernelIdeal.κ "inv_sqrt_d" .f32 0x3E3504F3#32 ((2097152 / 11863283 : ℝ) : EReal) rfl

theorem preserves : Cert.preserves_Kernel_KernelIdeal :=
  ⟨scale_named, scale_named, scale_named, scale_named, scale_named, scale_named, scale_named, scale_named⟩

/-- From launches that agree on the arguments, both programs end with the attention layer of every term in their
    result arrays: the kernel because its mask entries are 0 or 1 under the precondition, the reference always. -/
theorem algebraic : Cert.algebraic_KernelIdeal_ReferenceIdeal := by
  intro m ρ m' ρ' hpre hagree
  have hbin : ∀ (c : Dev Cert.KernelIdeal.nD) (i : Cert.KernelIdeal.S8x1024x32.Idx),
      m ((c : Thread Cert.KernelIdeal.nD Cert.KernelIdeal.τ).loc Cert.KernelIdeal.main_arg1) i = 0#32
        ∨ m ((c : Thread Cert.KernelIdeal.nD Cert.KernelIdeal.τ).loc Cert.KernelIdeal.main_arg1) i = 1#32 :=
    fun c i => Cert.MaskDomain.mask_binary (F := Ideal) _ _ _ _ _ _ (hpre c) i
  refine ⟨fun c => Cert.KernelIdeal.ArrayValue.Gm m c, Cert.KernelIdeal.ArrayValue.run m ρ hbin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.RefValue.ref_eq_G,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
